-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S8x256 : Shape := ⟨2, ![8, 256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .f32) (main_arg1 : IVec S8x256 32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  main_v3
-- ==== Kernel.lean ====
abbrev S8x8192x256 : Shape := ⟨3, ![8, 8192, 256]⟩
abbrev S8x256 : Shape := ⟨2, ![8, 256]⟩
abbrev S_ : Shape := ⟨0, ![]⟩
abbrev S8x256x1 : Shape := ⟨3, ![8, 256, 1]⟩
abbrev S8x256x256 : Shape := ⟨3, ![8, 256, 256]⟩
abbrev S1x8192x256 : Shape := ⟨3, ![1, 8192, 256]⟩
abbrev S1x256x256 : Shape := ⟨3, ![1, 256, 256]⟩
abbrev S8192x256 : Shape := ⟨2, ![8192, 256]⟩
abbrev S8192 : Shape := ⟨1, ![8192]⟩
abbrev S8192x1 : Shape := ⟨2, ![8192, 1]⟩
abbrev S256x256 : Shape := ⟨2, ![256, 256]⟩
abbrev S256 : Shape := ⟨1, ![256]⟩
abbrev S2048x256 : Shape := ⟨2, ![2048, 256]⟩
abbrev S2048x1 : Shape := ⟨2, ![2048, 1]⟩
abbrev S1x256 : Shape := ⟨2, ![1, 256]⟩
abbrev S2048 : Shape := ⟨1, ![2048]⟩
abbrev S256x2048 : Shape := ⟨2, ![256, 2048]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S8x8192x256, .f32⟩
  | .hbm, ⟨1, _⟩ => ⟨S8x256, .i32⟩
  | .hbm, ⟨2, _⟩ => ⟨S_, .i32⟩
  | .hbm, ⟨3, _⟩ => ⟨S8x256, .i32⟩
  | .hbm, ⟨4, _⟩ => ⟨S8x256, .i1⟩
  | .hbm, ⟨5, _⟩ => ⟨S_, .i32⟩
  | .hbm, ⟨6, _⟩ => ⟨S8x256, .i32⟩
  | .hbm, ⟨7, _⟩ => ⟨S8x256, .i32⟩
  | .hbm, ⟨8, _⟩ => ⟨S8x256, .i32⟩
  | .hbm, ⟨9, _⟩ => ⟨S8x256x1, .i32⟩
  | .hbm, ⟨10, _⟩ => ⟨S8x256x256, .f32⟩
  | .hbm, ⟨11, _⟩ => ⟨S8x256x256, .f32⟩
  | .local _ .vmem, ⟨0, _⟩ => ⟨S1x8192x256, .f32⟩
  | .local _ .vmem, ⟨1, _⟩ => ⟨S1x8192x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  bitsLt_bf16_f32 : FTy.bits .bf16 < FTy.bits .f32
  reduces_S8192x256_S8192 : S8192x256.Reduces [1] S8192
  shapeCasts_S8192_S8192x1 : S8192.ShapeCasts S8192x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [1] S256
  slices_S8192x256_o0_0_S2048x256 : S8192x256.Slices ![0, 0] S2048x256
  slices_S8192x1_o0_0_S2048x1 : S8192x1.Slices ![0, 0] S2048x1
  transposes_S256x256_p1_0_S256x256 : S256x256.Transposes [1, 0] S256x256
  shapeCasts_S256_S1x256 : S256.ShapeCasts S1x256
  broadcasts_S2048x1_S2048x256 : S2048x1.Broadcasts S2048x256
  broadcasts_S1x256_S2048x256 : S1x256.Broadcasts S2048x256
  reduces_S2048x256_S2048 : S2048x256.Reduces [1] S2048
  shapeCasts_S2048_S2048x1 : S2048.ShapeCasts S2048x1
  reduces_S2048x256_S256 : S2048x256.Reduces [0] S256
  transposes_S2048x256_p1_0_S256x2048 : S2048x256.Transposes [1, 0] S256x2048
  slices_S8192x256_o2048_0_S2048x256 : S8192x256.Slices ![2048, 0] S2048x256
  slices_S8192x1_o2048_0_S2048x1 : S8192x1.Slices ![2048, 0] S2048x1
  slices_S8192x256_o4096_0_S2048x256 : S8192x256.Slices ![4096, 0] S2048x256
  slices_S8192x1_o4096_0_S2048x1 : S8192x1.Slices ![4096, 0] S2048x1
  slices_S8192x256_o6144_0_S2048x256 : S8192x256.Slices ![6144, 0] S2048x256
  slices_S8192x1_o6144_0_S2048x1 : S8192x1.Slices ![6144, 0] S2048x1
  shapeCasts_S256_S256x1 : S256.ShapeCasts S256x1
  broadcasts_S256x1_S256x256 : S256x1.Broadcasts S256x256
  shapeCasts_S256x256_S1x256x256 : S256x256.ShapeCasts S1x256x256
  gather_S8x8192x256_S8x256x1_S8x256x256_2_1_0_0_1_2_11256_wf : GatherDims.WF S8x8192x256 S8x256x1 S8x256x256 [2] [1] [0] [1] [0] 2 ![1, 1, 256]
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S8x8192x256.size a
  hwx0_0 : ∀ i : grid0.Coords, EltTy.bits .f32 = 32 ∨ (Rect.block (s := S8x8192x256) S1x8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .f32 = 32 ∨ (Rect.block (s := S8x256x256) S1x256x256.size (cc0_transform_2 i) (hinb0_2 i)).WholeWords (EltTy.packing .f32)

variable [Facts₀]

def gather_S8x8192x256_S8x256x1_S8x256x256_2_1_0_0_1_2_11256 : GatherDims S8x8192x256 S8x256x1 S8x256x256 where
  offsetDims := [2]
  collapsedSliceDims := [1]
  operandBatchingDims := [0]
  startIndicesBatchingDims := [0]
  startIndexMap := [1]
  indexVectorDim := 2
  sliceSizes := ![1, 1, 256]
  wf := gather_S8x8192x256_S8x256x1_S8x256x256_2_1_0_0_1_2_11256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x256 : Shape := ⟨3, ![8, 8192, 256]⟩
abbrev S8x256 : Shape := ⟨2, ![8, 256]⟩
abbrev S_ : Shape := ⟨0, ![]⟩
abbrev S8x256x1 : Shape := ⟨3, ![8, 256, 1]⟩
abbrev S8x256x256 : Shape := ⟨3, ![8, 256, 256]⟩
abbrev S8x8192 : Shape := ⟨2, ![8, 8192]⟩
abbrev S8x8192x1 : Shape := ⟨3, ![8, 8192, 1]⟩
abbrev S8x1x256 : Shape := ⟨3, ![8, 1, 256]⟩

abbrev nBuf : Space → Nat
  | .hbm => 210
  | .vmem => 0
  | .smem => 0
  | _ => 0

abbrev hbmTy0_0 (i : Nat) : BufTy := match i % 128 with
  | 0 => ⟨S8x8192x256, .f32⟩
  | 1 => ⟨S8x256, .i32⟩
  | 2 => ⟨S_, .i32⟩
  | 3 => ⟨S8x256, .i32⟩
  | 4 => ⟨S8x256, .i1⟩
  | 5 => ⟨S_, .i32⟩
  | 6 => ⟨S8x256, .i32⟩
  | 7 => ⟨S8x256, .i32⟩
  | 8 => ⟨S8x256, .i32⟩
  | 9 => ⟨S8x256x1, .i32⟩
  | 10 => ⟨S8x256x256, .f32⟩
  | 11 => ⟨S8x8192x256, .f32⟩
  | 12 => ⟨S_, .f32⟩
  | 13 => ⟨S8x8192, .f32⟩
  | 14 => ⟨S8x8192x1, .f32⟩
  | 15 => ⟨S8x256x256, .f32⟩
  | 16 => ⟨S_, .f32⟩
  | 17 => ⟨S8x256, .f32⟩
  | 18 => ⟨S8x1x256, .f32⟩
  | 19 => ⟨S8x8192x256, .f32⟩
  | 20 => ⟨S8x8192x256, .f32⟩
  | 21 => ⟨S8x8192x256, .f32⟩
  | 22 => ⟨S8x8192x256, .f32⟩
  | 23 => ⟨S_, .f32⟩
  | 24 => ⟨S8x8192x256, .f32⟩
  | 25 => ⟨S8x8192x256, .f32⟩
  | 26 => ⟨S8x8192x256, .f32⟩
  | 27 => ⟨S8x8192x256, .f32⟩
  | 28 => ⟨S_, .f32⟩
  | 29 => ⟨S8x8192x256, .f32⟩
  | 30 => ⟨S8x8192x256, .f32⟩
  | 31 => ⟨S_, .f32⟩
  | 32 => ⟨S8x8192, .f32⟩
  | 33 => ⟨S_, .f32⟩
  | 34 => ⟨S8x8192, .f32⟩
  | 35 => ⟨S8x8192, .f32⟩
  | 36 => ⟨S8x8192x1, .f32⟩
  | 37 => ⟨S8x8192x256, .f32⟩
  | 38 => ⟨S8x8192x256, .f32⟩
  | 39 => ⟨S8x8192x256, .f32⟩
  | 40 => ⟨S_, .f32⟩
  | 41 => ⟨S8x8192, .f32⟩
  | 42 => ⟨S8x8192x1, .f32⟩
  | 43 => ⟨S8x8192x256, .f32⟩
  | 44 => ⟨S8x8192x256, .f32⟩
  | 45 => ⟨S_, .f32⟩
  | 46 => ⟨S8x256, .f32⟩
  | 47 => ⟨S8x256x1, .f32⟩
  | 48 => ⟨S_, .f32⟩
  | 49 => ⟨S8x256x1, .f32⟩
  | 50 => ⟨S8x256x1, .f32⟩
  | 51 => ⟨S8x256x256, .f32⟩
  | 52 => ⟨S8x256x256, .f32⟩
  | 53 => ⟨S8x256x256, .f32⟩
  | 54 => ⟨S8x256x256, .f32⟩
  | 55 => ⟨S_, .f32⟩
  | 56 => ⟨S8x256, .f32⟩
  | 57 => ⟨S8x1x256, .f32⟩
  | 58 => ⟨S8x8192x256, .f32⟩
  | 59 => ⟨S8x8192x256, .f32⟩
  | 60 => ⟨S8x8192x256, .f32⟩
  | 61 => ⟨S8x8192x256, .f32⟩
  | 62 => ⟨S_, .f32⟩
  | 63 => ⟨S8x8192x256, .f32⟩
  | 64 => ⟨S8x8192x256, .f32⟩
  | 65 => ⟨S8x8192x256, .f32⟩
  | 66 => ⟨S8x8192x256, .f32⟩
  | 67 => ⟨S_, .f32⟩
  | 68 => ⟨S8x8192x256, .f32⟩
  | 69 => ⟨S8x8192x256, .f32⟩
  | 70 => ⟨S_, .f32⟩
  | 71 => ⟨S8x8192, .f32⟩
  | 72 => ⟨S_, .f32⟩
  | 73 => ⟨S8x8192, .f32⟩
  | 74 => ⟨S8x8192, .f32⟩
  | 75 => ⟨S8x8192x1, .f32⟩
  | 76 => ⟨S8x8192x256, .f32⟩
  | 77 => ⟨S8x8192x256, .f32⟩
  | 78 => ⟨S8x8192x256, .f32⟩
  | 79 => ⟨S_, .f32⟩
  | 80 => ⟨S8x8192, .f32⟩
  | 81 => ⟨S8x8192x1, .f32⟩
  | 82 => ⟨S8x8192x256, .f32⟩
  | 83 => ⟨S8x8192x256, .f32⟩
  | 84 => ⟨S_, .f32⟩
  | 85 => ⟨S8x256, .f32⟩
  | 86 => ⟨S8x256x1, .f32⟩
  | 87 => ⟨S_, .f32⟩
  | 88 => ⟨S8x256x1, .f32⟩
  | 89 => ⟨S8x256x1, .f32⟩
  | 90 => ⟨S8x256x256, .f32⟩
  | 91 => ⟨S8x256x256, .f32⟩
  | 92 => ⟨S8x256x256, .f32⟩
  | 93 => ⟨S8x256x256, .f32⟩
  | 94 => ⟨S_, .f32⟩
  | 95 => ⟨S8x256, .f32⟩
  | 96 => ⟨S8x1x256, .f32⟩
  | 97 => ⟨S8x8192x256, .f32⟩
  | 98 => ⟨S8x8192x256, .f32⟩
  | 99 => ⟨S8x8192x256, .f32⟩
  | 100 => ⟨S8x8192x256, .f32⟩
  | 101 => ⟨S_, .f32⟩
  | 102 => ⟨S8x8192x256, .f32⟩
  | 103 => ⟨S8x8192x256, .f32⟩
  | 104 => ⟨S8x8192x256, .f32⟩
  | 105 => ⟨S8x8192x256, .f32⟩
  | 106 => ⟨S_, .f32⟩
  | 107 => ⟨S8x8192x256, .f32⟩
  | 108 => ⟨S8x8192x256, .f32⟩
  | 109 => ⟨S_, .f32⟩
  | 110 => ⟨S8x8192, .f32⟩
  | 111 => ⟨S_, .f32⟩
  | 112 => ⟨S8x8192, .f32⟩
  | 113 => ⟨S8x8192, .f32⟩
  | 114 => ⟨S8x8192x1, .f32⟩
  | 115 => ⟨S8x8192x256, .f32⟩
  | 116 => ⟨S8x8192x256, .f32⟩
  | 117 => ⟨S8x8192x256, .f32⟩
  | 118 => ⟨S_, .f32⟩
  | 119 => ⟨S8x8192, .f32⟩
  | 120 => ⟨S8x8192x1, .f32⟩
  | 121 => ⟨S8x8192x256, .f32⟩
  | 122 => ⟨S8x8192x256, .f32⟩
  | 123 => ⟨S_, .f32⟩
  | 124 => ⟨S8x256, .f32⟩
  | 125 => ⟨S8x256x1, .f32⟩
  | 126 => ⟨S_, .f32⟩
  | 127 => ⟨S8x256x1, .f32⟩
  | _ => ⟨S8x8192x256, .f32⟩

abbrev hbmTy0_1 (i : Nat) : BufTy := match i % 128 with
  | 0 => ⟨S8x256x1, .f32⟩
  | 1 => ⟨S8x256x256, .f32⟩
  | 2 => ⟨S8x256x256, .f32⟩
  | 3 => ⟨S8x256x256, .f32⟩
  | 4 => ⟨S8x256x256, .f32⟩
  | 5 => ⟨S_, .f32⟩
  | 6 => ⟨S8x256, .f32⟩
  | 7 => ⟨S8x1x256, .f32⟩
  | 8 => ⟨S8x8192x256, .f32⟩
  | 9 => ⟨S8x8192x256, .f32⟩
  | 10 => ⟨S8x8192x256, .f32⟩
  | 11 => ⟨S8x8192x256, .f32⟩
  | 12 => ⟨S_, .f32⟩
  | 13 => ⟨S8x8192x256, .f32⟩
  | 14 => ⟨S8x8192x256, .f32⟩
  | 15 => ⟨S8x8192x256, .f32⟩
  | 16 => ⟨S8x8192x256, .f32⟩
  | 17 => ⟨S_, .f32⟩
  | 18 => ⟨S8x8192x256, .f32⟩
  | 19 => ⟨S8x8192x256, .f32⟩
  | 20 => ⟨S_, .f32⟩
  | 21 => ⟨S8x8192, .f32⟩
  | 22 => ⟨S_, .f32⟩
  | 23 => ⟨S8x8192, .f32⟩
  | 24 => ⟨S8x8192, .f32⟩
  | 25 => ⟨S8x8192x1, .f32⟩
  | 26 => ⟨S8x8192x256, .f32⟩
  | 27 => ⟨S8x8192x256, .f32⟩
  | 28 => ⟨S8x8192x256, .f32⟩
  | 29 => ⟨S_, .f32⟩
  | 30 => ⟨S8x8192, .f32⟩
  | 31 => ⟨S8x8192x1, .f32⟩
  | 32 => ⟨S8x8192x256, .f32⟩
  | 33 => ⟨S8x8192x256, .f32⟩
  | 34 => ⟨S_, .f32⟩
  | 35 => ⟨S8x256, .f32⟩
  | 36 => ⟨S8x256x1, .f32⟩
  | 37 => ⟨S_, .f32⟩
  | 38 => ⟨S8x256x1, .f32⟩
  | 39 => ⟨S8x256x1, .f32⟩
  | 40 => ⟨S8x256x256, .f32⟩
  | 41 => ⟨S8x256x256, .f32⟩
  | 42 => ⟨S8x256x256, .f32⟩
  | 43 => ⟨S8x256x256, .f32⟩
  | 44 => ⟨S_, .f32⟩
  | 45 => ⟨S8x256, .f32⟩
  | 46 => ⟨S8x1x256, .f32⟩
  | 47 => ⟨S8x8192x256, .f32⟩
  | 48 => ⟨S8x8192x256, .f32⟩
  | 49 => ⟨S8x8192x256, .f32⟩
  | 50 => ⟨S8x8192x256, .f32⟩
  | 51 => ⟨S_, .f32⟩
  | 52 => ⟨S8x8192x256, .f32⟩
  | 53 => ⟨S8x8192x256, .f32⟩
  | 54 => ⟨S8x8192x256, .f32⟩
  | 55 => ⟨S8x8192x256, .f32⟩
  | 56 => ⟨S_, .f32⟩
  | 57 => ⟨S8x8192x256, .f32⟩
  | 58 => ⟨S8x8192x256, .f32⟩
  | 59 => ⟨S_, .f32⟩
  | 60 => ⟨S8x8192, .f32⟩
  | 61 => ⟨S_, .f32⟩
  | 62 => ⟨S8x8192, .f32⟩
  | 63 => ⟨S8x8192, .f32⟩
  | 64 => ⟨S8x8192x1, .f32⟩
  | 65 => ⟨S8x8192x256, .f32⟩
  | 66 => ⟨S8x8192x256, .f32⟩
  | 67 => ⟨S8x8192x256, .f32⟩
  | 68 => ⟨S_, .f32⟩
  | 69 => ⟨S8x8192, .f32⟩
  | 70 => ⟨S8x8192x1, .f32⟩
  | 71 => ⟨S8x8192x256, .f32⟩
  | 72 => ⟨S8x8192x256, .f32⟩
  | 73 => ⟨S_, .f32⟩
  | 74 => ⟨S8x256, .f32⟩
  | 75 => ⟨S8x256x1, .f32⟩
  | 76 => ⟨S_, .f32⟩
  | 77 => ⟨S8x256x1, .f32⟩
  | 78 => ⟨S8x256x1, .f32⟩
  | 79 => ⟨S8x256x256, .f32⟩
  | 80 => ⟨S8x256x256, .f32⟩
  | 81 => ⟨S8x256x256, .f32⟩
  | _ => ⟨S8x8192x256, .f32⟩

abbrev hbmTy (i : Nat) : BufTy := match i / 128 with
  | 0 => hbmTy0_0 i
  | 1 => hbmTy0_1 i
  | _ => ⟨S8x8192x256, .f32⟩

abbrev bufTy : (tb : Table) → Fin (tcTables nBuf tb) → BufTy
  | .hbm, ⟨i, _⟩ => hbmTy i
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_cst_13 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_18 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_cst_20 : Ref sig .tc := ⟨.hbm, 109, rfl⟩
abbrev main_v85 : Ref sig .tc := ⟨.hbm, 110, rfl⟩
abbrev main_cst_21 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_22 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_23 : Ref sig .tc := ⟨.hbm, 123, rfl⟩
abbrev main_v96 : Ref sig .tc := ⟨.hbm, 124, rfl⟩
abbrev main_v97 : Ref sig .tc := ⟨.hbm, 125, rfl⟩
abbrev main_cst_24 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_25 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_26 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_27 : Ref sig .tc := ⟨.hbm, 145, rfl⟩
abbrev main_v114 : Ref sig .tc := ⟨.hbm, 146, rfl⟩
abbrev main_v115 : Ref sig .tc := ⟨.hbm, 147, rfl⟩
abbrev main_cst_28 : Ref sig .tc := ⟨.hbm, 148, rfl⟩
abbrev main_v116 : Ref sig .tc := ⟨.hbm, 149, rfl⟩
abbrev main_cst_29 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_30 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_31 : Ref sig .tc := ⟨.hbm, 162, rfl⟩
abbrev main_v127 : Ref sig .tc := ⟨.hbm, 163, rfl⟩
abbrev main_v128 : Ref sig .tc := ⟨.hbm, 164, rfl⟩
abbrev main_cst_32 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_33 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_34 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_35 : Ref sig .tc := ⟨.hbm, 184, rfl⟩
abbrev main_v145 : Ref sig .tc := ⟨.hbm, 185, rfl⟩
abbrev main_v146 : Ref sig .tc := ⟨.hbm, 186, rfl⟩
abbrev main_cst_36 : Ref sig .tc := ⟨.hbm, 187, rfl⟩
abbrev main_v147 : Ref sig .tc := ⟨.hbm, 188, rfl⟩
abbrev main_cst_37 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_38 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_39 : Ref sig .tc := ⟨.hbm, 201, rfl⟩
abbrev main_v158 : Ref sig .tc := ⟨.hbm, 202, rfl⟩
abbrev main_v159 : Ref sig .tc := ⟨.hbm, 203, rfl⟩
abbrev main_cst_40 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  reducesTo_S8x8192x256_S8x8192_d2 : S8x8192x256.ReducesTo [2] S8x8192
  h_S_ : 0 < S_.numel
  bcast_S8x8192_S8x8192x1_0_1 : S8x8192.BroadcastsInDim S8x8192x1 (![0, 1] : Fin 2 → Fin S8x8192x1.rank)
  reducesTo_S8x256x256_S8x256_d2 : S8x256x256.ReducesTo [2] S8x256
  bcast_S8x256_S8x1x256_0_2 : S8x256.BroadcastsInDim S8x1x256 (![0, 2] : Fin 2 → Fin S8x1x256.rank)
  bcast_S8x8192x1_S8x8192x256_0_1_2 : S8x8192x1.BroadcastsInDim S8x8192x256 (![0, 1, 2] : Fin 3 → Fin S8x8192x256.rank)
  bcast_S8x1x256_S8x8192x256_0_1_2 : S8x1x256.BroadcastsInDim S8x8192x256 (![0, 1, 2] : Fin 3 → Fin S8x8192x256.rank)
  bcast_S_S8x8192x256 : S_.BroadcastsInDim S8x8192x256 (![] : Fin 0 → Fin S8x8192x256.rank)
  bcast_S_S8x8192 : S_.BroadcastsInDim S8x8192 (![] : Fin 0 → Fin S8x8192.rank)
  reducesTo_S8x8192x256_S8x256_d1 : S8x8192x256.ReducesTo [1] S8x256
  bcast_S_S8x256x1 : S_.BroadcastsInDim S8x256x1 (![] : Fin 0 → Fin S8x256x1.rank)
  bcast_S8x256x1_S8x256x256_0_1_2 : S8x256x1.BroadcastsInDim S8x256x256 (![0, 1, 2] : Fin 3 → Fin S8x256x256.rank)
  gather_S8x8192x256_S8x256x1_S8x256x256_2_1_0_0_1_2_11256_wf : GatherDims.WF S8x8192x256 S8x256x1 S8x256x256 [2] [1] [0] [1] [0] 2 ![1, 1, 256]
  dot_S8x8192x256_S8x256x256_S8x8192x256_2_2_1_1_0_0_wf : DotDims.WF S8x8192x256 S8x256x256 S8x8192x256 [2] [2] [1] [1] [0] [0]
  dot_S8x8192x256_S8x8192x256_S8x256x256_1_1_2_2_0_0_wf : DotDims.WF S8x8192x256 S8x8192x256 S8x256x256 [1] [1] [2] [2] [0] [0]

variable [Facts₀]

def gather_S8x8192x256_S8x256x1_S8x256x256_2_1_0_0_1_2_11256 : GatherDims S8x8192x256 S8x256x1 S8x256x256 where
  offsetDims := [2]
  collapsedSliceDims := [1]
  operandBatchingDims := [0]
  startIndicesBatchingDims := [0]
  startIndexMap := [1]
  indexVectorDim := 2
  sliceSizes := ![1, 1, 256]
  wf := gather_S8x8192x256_S8x256x1_S8x256x256_2_1_0_0_1_2_11256_wf
def dot_S8x8192x256_S8x256x256_S8x8192x256_2_2_1_1_0_0 : DotDims S8x8192x256 S8x256x256 S8x8192x256 where
  lhsContracting := [2]
  rhsContracting := [2]
  lhsNonContracting := [1]
  rhsNonContracting := [1]
  lhsBatch := [0]
  rhsBatch := [0]
  wf := dot_S8x8192x256_S8x256x256_S8x8192x256_2_2_1_1_0_0_wf
def dot_S8x8192x256_S8x8192x256_S8x256x256_1_1_2_2_0_0 : DotDims S8x8192x256 S8x8192x256 S8x256x256 where
  lhsContracting := [1]
  rhsContracting := [1]
  lhsNonContracting := [2]
  rhsNonContracting := [2]
  lhsBatch := [0]
  rhsBatch := [0]
  wf := dot_S8x8192x256_S8x8192x256_S8x256x256_1_1_2_2_0_0_wf

class Facts : Prop extends Facts₀ where

variable [Facts]
-- ==== Proof.KerBodyB.lean ====
/-
  The kernel's body as its memory operations: it loads the block of x and the block of initial centroids, computes,
  loads the result buffer (a value it does not use) and stores one value. The stored value is written here as the body
  computes it, part by part: each part's values from the values of the parts before it.
-/
import proofs.«175411_j7876970021312_1_alg».proof.Proof.Gen.Kernel.Skeleton

noncomputable section

namespace Cert.Kernel.Body

open Cert.Kernel Cert.Kernel.Gen Idealize.ShloMosaic Idealize.SL.Sem

variable {F : FTy → Type} [FloatOps F]

/-- The stored value as the body computes it: each part's values from the values of the parts before it. -/
def storedDag (v0 : Vec F S1x8192x256 .f32) (v6 : Vec F S1x256x256 .f32) : FVec F S1x256x256 .f32 :=
  -- part 1
  have v2 := k0_pay3 v0
  have v5 := k0_pay4 v0
  have v9 := k0_pay6 v6
  have v10 := k0_pay7 v6
  have v12 := k0_pay8 (F := F)
  have v13 := k0_pay9 v0
  have v38 := k0_pay10 v0 v6
  have v40 := k0_pay11 v0 v6
  -- part 2
  have cst_28 : F .f32 := Scalar.ofBits .f32 0x00000000#32
  have v72 := k0_pay14 v2 v5 v9 v10 v40
  have v76 := k0_pay15 v2 v5 v9 v10 v12 v13 v38
  have v77 := k0_pay16 v2
  have v87 := k0_pay17 v2 v5 v9 v10
  -- part 3
  have v104 := k0_pay19 v72 v87 cst_28
  have v108 := k0_pay20 v76 v77 v87 cst_28
  have v109 := k0_pay21 v2
  have v134 := k0_pay22 v2 v5 v9 v10
  -- part 4
  have v147 := k0_pay24 v104 v108 v109 v134
  have v148 := k0_pay25 v104 v108 v109 v134
  have v150 := k0_pay26 (F := F)
  have v151 := k0_pay27 v2
  have v178 := k0_pay29 v2 v5 v104 v108 v109 v134
  have v180 := k0_pay30 v2 v5 v104 v108 v109 v134
  -- part 5
  have v210 := k0_pay33 v2 v5 v147 v148 v178
  have v214 := k0_pay34 v2 v5 v147 v148 v150 v151 v180
  have v215 := k0_pay35 v2
  have v227 := k0_pay36 v2 v5 v147 v148
  -- part 6
  have v242 := k0_pay38 v210 v227
  have v246 := k0_pay39 v214 v215 v227
  have v247 := k0_pay40 v2
  have v272 := k0_pay41 v2 v5 v147 v148
  have v273 := k0_pay42 v2 v5 v147 v148
  -- part 7
  have v285 := k0_pay44 v242 v246 v247 v272 v273
  have v286 := k0_pay45 v242 v246 v247 v272 v273
  have v288 := k0_pay46 (F := F)
  have v316 := k0_pay49 v2 v5 v242 v246 v247 v272 v273
  have v319 := k0_pay50 v2 v5 v242 v246 v247 v272 v273
  -- part 8
  have v348 := k0_pay53 v2 v5 v285 v286 v316
  have v352 := k0_pay54 v2 v5 v285 v286 v288 v319
  have v353 := k0_pay55 v2
  have v365 := k0_pay56 v2 v5 v285 v286
  have v366 := k0_pay57 (F := F)
  -- part 9
  have v384 := k0_pay59 v352 v353 v365 v366
  have v385 := k0_pay60 v2
  have v412 := k0_pay62 v2 v5 v285 v286 v348 v365 v366
  have v413 := k0_pay63 v2 v5 v285 v286
  -- part 10
  have v423 := k0_pay65 v384 v385 v412 v413
  have v424 := k0_pay66 v384 v385 v412 v413
  have v454 := k0_pay69 v2 v5 v384 v385 v412 v413
  have v458 := k0_pay70 v2 v5 v384 v385 v412 v413
  have v459 := k0_pay71 v2
  -- part 11
  have v486 := k0_pay73 v5 v423 v424 v454 v459
  have v490 := k0_pay74 v5 v423 v424 v458 v459
  have v491 := k0_pay75 v2
  have v505 := k0_pay76 v2 v5 v423 v424
  -- part 12
  have cst_163 : FVec F S256x256 .f32 := constant S256x256 .f32 0x00000000#32
  have v522 := k0_pay78 v490 v491 v505
  have v523 := k0_pay79 v2
  have v550 := k0_pay81 v2 v5 v423 v424 v486 v505
  have v552 := k0_pay82 v2 v5 v423 v424
  -- part 13
  have v561 := k0_pay84 v522 v523 v550 v552 cst_163
  have v562 := k0_pay85 v522 v523 v550 v552 cst_163
  have v592 := k0_pay88 v2 v5 v522 v523 v550 v552 cst_163
  have v596 := k0_pay89 v2 v5 v522 v523 v550 v552 cst_163
  have v597 := k0_pay90 v2
  have v598 := k0_pay91 v5
  have v599 := k0_pay92 v522 v523 v550 v552 cst_163
  -- part 14
  have cst_191 : F .f32 := Scalar.ofBits .f32 0xFF800000#32
  have v624 := k0_pay94 v561 v592 v597 v598 v599
  have v628 := k0_pay95 v561 v596 v597 v598 v599
  have v629 := k0_pay96 v2
  have v643 := k0_pay97 v2 v5 v561 v562
  have v644 := k0_pay98 v2 v5 v561 v562
  -- part 15
  have v688 := k0_pay102 v2 v5 v561 v562 v624 v643 v644 cst_191
  have v692 := k0_pay103 v2 v5 v561 v562 v628 v629 v643 v644 cst_191
  k0_pay1 v688 v692

set_option maxRecDepth 65536 in
/-- The body is its three loads and its one store of that value. -/
theorem body_eq (i : grid0.Coords) (arg1 : Memref sig .tc .vmem S1x8192x256 .f32) (harg1 : arg1.IsWhole) (arg2 : Memref sig .tc .vmem S1x256x256 .f32) (harg2 : arg2.IsWhole) (arg3 : Memref sig .tc .vmem S1x256x256 .f32) (harg3 : arg3.IsWhole) :
    cc0__softkmeans_kernel (F := F) i arg1 harg1 arg2 harg2 arg3 harg3 = (do
      let v0 : Vec F S1x8192x256 .f32 ← Prog.lift (.load arg1 (Rect.unit (s := S1x8192x256) ![0, 0, 0] S1x8192x256.size inb_S1x8192x256_S1x8192x256_0_0_0).toLoadRect (View.loadsAt_vmem h_S1x8192x256))
      let v6 : Vec F S1x256x256 .f32 ← Prog.lift (.load arg2 (Rect.unit (s := S1x256x256) ![0, 0, 0] S1x256x256.size inb_S1x256x256_S1x256x256_0_0_0).toLoadRect (View.loadsAt_vmem h_S1x256x256))
      let v698 : Vec F S1x256x256 .f32 ← Prog.lift (.load arg3 (Rect.unit (s := S1x256x256) ![0, 0, 0] S1x256x256.size inb_S1x256x256_S1x256x256_0_0_0).toLoadRect (View.loadsAt_vmem h_S1x256x256))
      Prog.lift (.store arg3 (Rect.unit (s := S1x256x256) ![0, 0, 0] S1x256x256.size inb_S1x256x256_S1x256x256_0_0_0) (storedDag v0 v6) Finset.univ (View.stores_vmem_bits_univ h_S1x256x256 rfl) (.inl rfl))
      pure ⟨⟩ : Prog (TpuEff nD τ sig (Elt F) Λ₀ .tc) PUnit) := by
  simp only [cc0__softkmeans_kernel_eq_skeleton]; unfold cc0__softkmeans_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [bind_assoc, pure_bind]
  rfl

end Cert.Kernel.Body

end
-- ==== Proof.KerDefs.lean ====
/-
  One update of the centroids as the kernel computes it on one batch element, as a function of the kernel's values: the
  rows x (as the matmul operand), the rows' squared lengths (a column), and the current centroids.

  The kernel goes through the 8192 rows in four blocks of 2048: for each block it forms the logits
  (|x|² + |c|²) - 2·x·cᵀ, negated and divided by 1/2, the softmax weights of each row, adds the block's column sums of
  the weights to the total weight and the block's product (weights)ᵀ·x to the weighted sum; at the end the weighted sum
  is divided by the total weight plus ε. What the kernel stores is five such updates of the block of initial centroids.
-/
import proofs.«175411_j7876970021312_1_alg».proof.Proof.Gen.KernelIdeal

noncomputable section

namespace Cert.KernelIdeal.Iter

open Idealize.ShloMosaic Cert.KernelIdeal Cert.KernelIdeal.Facts₀ Cert.KernelIdeal.Facts

section Defs

variable {F : FTy → Type} [FloatOps F]

/-- The logits of the block of rows starting at `off`. -/
def blockLogit (off : Nat) (h1 : S8192x256.Slices ![off, 0] S2048x256) (h2 : S8192x1.Slices ![off, 0] S2048x1)
    (xb : FVec F S8192x256 .bf16) (x2 : FVec F S8192x1 .f32) (c2 : FVec F S256 .f32) (cb : FVec F S256x256 .bf16) :
    FVec F S2048x256 .f32 :=
  divf (subf (broadcast S2048x256 (Scalar.ofBits .f32 0x00000000#32))
      (subf (addf (broadcastTo S2048x256 (extractStridedSlice S2048x1 ![off, 0] x2 h2) broadcasts_S2048x1_S2048x256)
          (broadcastTo S2048x256 (shapeCast S1x256 c2 shapeCasts_S256_S1x256) broadcasts_S1x256_S2048x256))
        (mulf (broadcast S2048x256 (Scalar.ofBits .f32 0x40000000#32))
          (matmul dot_S2048x256_S256x256_S2048x256_1_0_0_1_n_n none (extractStridedSlice S2048x256 ![off, 0] xb h1)
            (transpose S256x256 [1, 0] cb transposes_S256x256_p1_0_S256x256) (constant S2048x256 .f32 0x00000000#32)))))
    (broadcast S2048x256 (Scalar.ofBits .f32 0x3F000000#32))

/-- The exponentials of a block's logits, each row shifted by its maximum. -/
def blockExp (lg : FVec F S2048x256 .f32) : FVec F S2048x256 .f32 :=
  exp (subf lg (broadcastTo S2048x256 (shapeCast S2048x1
    (maximumf (broadcast S2048 (Scalar.ofBits .f32 0xFF800000#32))
      (multiReduction .maximumf [1] S2048 lg 0xFF800000#32 reduces_S2048x256_S2048 (.inl rfl) rfl))
    shapeCasts_S2048_S2048x1) broadcasts_S2048x1_S2048x256))

/-- Each row of exponentials divided by the row's sum. -/
def blockNorm (e : FVec F S2048x256 .f32) : FVec F S2048x256 .f32 :=
  divf e (broadcastTo S2048x256 (shapeCast S2048x1
    (multiReduction .add [1] S2048 e 0x00000000#32 reduces_S2048x256_S2048 (.inl rfl) rfl)
    shapeCasts_S2048_S2048x1) broadcasts_S2048x1_S2048x256)

/-- The squared lengths of the centroids. -/
def cSq (c : FVec F S256x256 .f32) : FVec F S256 .f32 :=
  multiReduction .add [1] S256 (mulf c c) 0x00000000#32 reduces_S256x256_S256 (.inl rfl) rfl

/-- The softmax weights of the block of rows starting at `off`. -/
def wts (off : Nat) (h1 : S8192x256.Slices ![off, 0] S2048x256) (h2 : S8192x1.Slices ![off, 0] S2048x1)
    (xb : FVec F S8192x256 .bf16) (x2 : FVec F S8192x1 .f32) (c : FVec F S256x256 .f32) : FVec F S2048x256 .f32 :=
  blockNorm (blockExp (blockLogit off h1 h2 xb x2 (cSq c) (truncf .bf16 c bitsLt_bf16_f32)))

/-- The total weight so far plus a block's column sums. -/
def denAdd (den : FVec F S256 .f32) (w : FVec F S2048x256 .f32) : FVec F S256 .f32 :=
  addf den (multiReduction .add [0] S256 w 0x00000000#32 reduces_S2048x256_S256 (.inl rfl) rfl)

/-- The weighted sum so far plus a block's (weights)ᵀ·x. -/
def accAdd (off : Nat) (h1 : S8192x256.Slices ![off, 0] S2048x256) (acc : FVec F S256x256 .f32)
    (w : FVec F S2048x256 .f32) (xb : FVec F S8192x256 .bf16) : FVec F S256x256 .f32 :=
  addf acc (matmul dot_S256x2048_S2048x256_S256x256_1_0_0_1_n_n none
    (transpose S256x2048 [1, 0] (truncf .bf16 w bitsLt_bf16_f32) transposes_S2048x256_p1_0_S256x2048)
    (extractStridedSlice S2048x256 ![off, 0] xb h1) (constant S256x256 .f32 0x00000000#32))

/-- The total weight of each centroid over the four blocks. -/
def kden (xb : FVec F S8192x256 .bf16) (x2 : FVec F S8192x1 .f32) (c : FVec F S256x256 .f32) : FVec F S256 .f32 :=
  denAdd (denAdd (denAdd (denAdd (broadcast S256 (Scalar.ofBits .f32 0x00000000#32))
    (wts 0 slices_S8192x256_o0_0_S2048x256 slices_S8192x1_o0_0_S2048x1 xb x2 c))
    (wts 2048 slices_S8192x256_o2048_0_S2048x256 slices_S8192x1_o2048_0_S2048x1 xb x2 c))
    (wts 4096 slices_S8192x256_o4096_0_S2048x256 slices_S8192x1_o4096_0_S2048x1 xb x2 c))
    (wts 6144 slices_S8192x256_o6144_0_S2048x256 slices_S8192x1_o6144_0_S2048x1 xb x2 c)

/-- The weighted sum of the rows over the four blocks. -/
def kacc (xb : FVec F S8192x256 .bf16) (x2 : FVec F S8192x1 .f32) (c : FVec F S256x256 .f32) : FVec F S256x256 .f32 :=
  accAdd 6144 slices_S8192x256_o6144_0_S2048x256 (accAdd 4096 slices_S8192x256_o4096_0_S2048x256
    (accAdd 2048 slices_S8192x256_o2048_0_S2048x256 (accAdd 0 slices_S8192x256_o0_0_S2048x256
      (broadcast S256x256 (Scalar.ofBits .f32 0x00000000#32))
      (wts 0 slices_S8192x256_o0_0_S2048x256 slices_S8192x1_o0_0_S2048x1 xb x2 c) xb)
      (wts 2048 slices_S8192x256_o2048_0_S2048x256 slices_S8192x1_o2048_0_S2048x1 xb x2 c) xb)
      (wts 4096 slices_S8192x256_o4096_0_S2048x256 slices_S8192x1_o4096_0_S2048x1 xb x2 c) xb)
      (wts 6144 slices_S8192x256_o6144_0_S2048x256 slices_S8192x1_o6144_0_S2048x1 xb x2 c) xb

/-- One update of the centroids. -/
def kiter (xb : FVec F S8192x256 .bf16) (x2 : FVec F S8192x1 .f32) (c : FVec F S256x256 .f32) : FVec F S256x256 .f32 :=
  divf (kacc xb x2 c) (broadcastTo S256x256 (shapeCast S256x1
    (addf (kden xb x2 c) (broadcast S256 (Scalar.ofBits .f32 0x358637BD#32))) shapeCasts_S256_S256x1)
    broadcasts_S256x1_S256x256)

/-- The rows of the block of x, as the matmuls take them. -/
def kx (v0 : Vec F S1x8192x256 .f32) : FVec F S8192x256 .bf16 :=
  truncf .bf16 (shapeCast S8192x256 v0 shapeCasts_S1x8192x256_S8192x256) bitsLt_bf16_f32

/-- The rows' squared lengths, as a column. -/
def kx2 (v0 : Vec F S1x8192x256 .f32) : FVec F S8192x1 .f32 :=
  shapeCast S8192x1 (multiReduction .add [1] S8192
    (mulf (shapeCast S8192x256 v0 shapeCasts_S1x8192x256_S8192x256) (shapeCast S8192x256 v0 shapeCasts_S1x8192x256_S8192x256))
    0x00000000#32 reduces_S8192x256_S8192 (.inl rfl) rfl) shapeCasts_S8192_S8192x1

/-- What the kernel stores: five updates from the block of initial centroids. -/
def kpayload (v0 : Vec F S1x8192x256 .f32) (v6 : Vec F S1x256x256 .f32) : FVec F S1x256x256 .f32 :=
  shapeCast S1x256x256 (kiter (kx v0) (kx2 v0) (kiter (kx v0) (kx2 v0) (kiter (kx v0) (kx2 v0) (kiter (kx v0) (kx2 v0)
    (kiter (kx v0) (kx2 v0) (shapeCast S256x256 v6 shapeCasts_S1x256x256_S256x256))))))
    shapeCasts_S256x256_S1x256x256

end Defs

end Cert.KernelIdeal.Iter

end
-- ==== Proof.KerBody.lean ====
/-
  The kernel's body as its memory operations: it loads the block of x and the block of initial centroids, computes,
  loads the result buffer (a value it does not use) and stores one value. The stored value is written here as the body
  computes it, part by part: each part's values from the values of the parts before it.
  That value is five updates of the block of initial centroids (`Iter.kpayload`): the two unfold to the same operations.
-/
import proofs.«175411_j7876970021312_1_alg».proof.Proof.Gen.KernelIdeal.Skeleton
import proofs.«175411_j7876970021312_1_alg».proof.Proof.KerDefs

noncomputable section

namespace Cert.KernelIdeal.Body

open Cert.KernelIdeal Cert.KernelIdeal.Gen Idealize.ShloMosaic Idealize.SL.Sem

variable {F : FTy → Type} [FloatOps F]

/-- The stored value as the body computes it: each part's values from the values of the parts before it. -/
def storedDag (v0 : Vec F S1x8192x256 .f32) (v6 : Vec F S1x256x256 .f32) : FVec F S1x256x256 .f32 :=
  -- part 1
  have v2 := k0_pay3 v0
  have v5 := k0_pay4 v0
  have v9 := k0_pay6 v6
  have v10 := k0_pay7 v6
  have v12 := k0_pay8 (F := F)
  have v13 := k0_pay9 v0
  have v38 := k0_pay10 v0 v6
  have v40 := k0_pay11 v0 v6
  -- part 2
  have cst_28 : F .f32 := Scalar.ofBits .f32 0x00000000#32
  have v72 := k0_pay14 v2 v5 v9 v10 v40
  have v76 := k0_pay15 v2 v5 v9 v10 v12 v13 v38
  have v77 := k0_pay16 v2
  have v87 := k0_pay17 v2 v5 v9 v10
  -- part 3
  have v104 := k0_pay19 v72 v87 cst_28
  have v108 := k0_pay20 v76 v77 v87 cst_28
  have v109 := k0_pay21 v2
  have v134 := k0_pay22 v2 v5 v9 v10
  -- part 4
  have v147 := k0_pay24 v104 v108 v109 v134
  have v148 := k0_pay25 v104 v108 v109 v134
  have v150 := k0_pay26 (F := F)
  have v151 := k0_pay27 v2
  have v178 := k0_pay29 v2 v5 v104 v108 v109 v134
  have v180 := k0_pay30 v2 v5 v104 v108 v109 v134
  -- part 5
  have v210 := k0_pay33 v2 v5 v147 v148 v178
  have v214 := k0_pay34 v2 v5 v147 v148 v150 v151 v180
  have v215 := k0_pay35 v2
  have v227 := k0_pay36 v2 v5 v147 v148
  -- part 6
  have v242 := k0_pay38 v210 v227
  have v246 := k0_pay39 v214 v215 v227
  have v247 := k0_pay40 v2
  have v272 := k0_pay41 v2 v5 v147 v148
  have v273 := k0_pay42 v2 v5 v147 v148
  -- part 7
  have v285 := k0_pay44 v242 v246 v247 v272 v273
  have v286 := k0_pay45 v242 v246 v247 v272 v273
  have v288 := k0_pay46 (F := F)
  have v316 := k0_pay49 v2 v5 v242 v246 v247 v272 v273
  have v319 := k0_pay50 v2 v5 v242 v246 v247 v272 v273
  -- part 8
  have v348 := k0_pay53 v2 v5 v285 v286 v316
  have v352 := k0_pay54 v2 v5 v285 v286 v288 v319
  have v353 := k0_pay55 v2
  have v365 := k0_pay56 v2 v5 v285 v286
  have v366 := k0_pay57 (F := F)
  -- part 9
  have v384 := k0_pay59 v352 v353 v365 v366
  have v385 := k0_pay60 v2
  have v412 := k0_pay62 v2 v5 v285 v286 v348 v365 v366
  have v413 := k0_pay63 v2 v5 v285 v286
  -- part 10
  have v423 := k0_pay65 v384 v385 v412 v413
  have v424 := k0_pay66 v384 v385 v412 v413
  have v454 := k0_pay69 v2 v5 v384 v385 v412 v413
  have v458 := k0_pay70 v2 v5 v384 v385 v412 v413
  have v459 := k0_pay71 v2
  -- part 11
  have v486 := k0_pay73 v5 v423 v424 v454 v459
  have v490 := k0_pay74 v5 v423 v424 v458 v459
  have v491 := k0_pay75 v2
  have v505 := k0_pay76 v2 v5 v423 v424
  -- part 12
  have cst_163 : FVec F S256x256 .f32 := constant S256x256 .f32 0x00000000#32
  have v522 := k0_pay78 v490 v491 v505
  have v523 := k0_pay79 v2
  have v550 := k0_pay81 v2 v5 v423 v424 v486 v505
  have v552 := k0_pay82 v2 v5 v423 v424
  -- part 13
  have v561 := k0_pay84 v522 v523 v550 v552 cst_163
  have v562 := k0_pay85 v522 v523 v550 v552 cst_163
  have v592 := k0_pay88 v2 v5 v522 v523 v550 v552 cst_163
  have v596 := k0_pay89 v2 v5 v522 v523 v550 v552 cst_163
  have v597 := k0_pay90 v2
  have v598 := k0_pay91 v5
  have v599 := k0_pay92 v522 v523 v550 v552 cst_163
  -- part 14
  have cst_191 : F .f32 := Scalar.ofBits .f32 0xFF800000#32
  have v624 := k0_pay94 v561 v592 v597 v598 v599
  have v628 := k0_pay95 v561 v596 v597 v598 v599
  have v629 := k0_pay96 v2
  have v643 := k0_pay97 v2 v5 v561 v562
  have v644 := k0_pay98 v2 v5 v561 v562
  -- part 15
  have v688 := k0_pay102 v2 v5 v561 v562 v624 v643 v644 cst_191
  have v692 := k0_pay103 v2 v5 v561 v562 v628 v629 v643 v644 cst_191
  k0_pay1 v688 v692

set_option maxRecDepth 65536 in
/-- The body is its three loads and its one store of that value. -/
theorem body_eq (i : grid0.Coords) (arg1 : Memref sig .tc .vmem S1x8192x256 .f32) (harg1 : arg1.IsWhole) (arg2 : Memref sig .tc .vmem S1x256x256 .f32) (harg2 : arg2.IsWhole) (arg3 : Memref sig .tc .vmem S1x256x256 .f32) (harg3 : arg3.IsWhole) :
    cc0__softkmeans_kernel (F := F) i arg1 harg1 arg2 harg2 arg3 harg3 = (do
      let v0 : Vec F S1x8192x256 .f32 ← Prog.lift (.load arg1 (Rect.unit (s := S1x8192x256) ![0, 0, 0] S1x8192x256.size inb_S1x8192x256_S1x8192x256_0_0_0).toLoadRect (View.loadsAt_vmem h_S1x8192x256))
      let v6 : Vec F S1x256x256 .f32 ← Prog.lift (.load arg2 (Rect.unit (s := S1x256x256) ![0, 0, 0] S1x256x256.size inb_S1x256x256_S1x256x256_0_0_0).toLoadRect (View.loadsAt_vmem h_S1x256x256))
      let v698 : Vec F S1x256x256 .f32 ← Prog.lift (.load arg3 (Rect.unit (s := S1x256x256) ![0, 0, 0] S1x256x256.size inb_S1x256x256_S1x256x256_0_0_0).toLoadRect (View.loadsAt_vmem h_S1x256x256))
      Prog.lift (.store arg3 (Rect.unit (s := S1x256x256) ![0, 0, 0] S1x256x256.size inb_S1x256x256_S1x256x256_0_0_0) (storedDag v0 v6) Finset.univ (View.stores_vmem_bits_univ h_S1x256x256 rfl) (.inl rfl))
      pure ⟨⟩ : Prog (TpuEff nD τ sig (Elt F) Λ₀ .tc) PUnit) := by
  simp only [cc0__softkmeans_kernel_eq_skeleton]; unfold cc0__softkmeans_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [bind_assoc, pure_bind]
  rfl

set_option maxHeartbeats 4000000 in
/-- The stored value is five updates of the block of initial centroids. -/
theorem storedDag_eq (v0 : Vec F S1x8192x256 .f32) (v6 : Vec F S1x256x256 .f32) :
    storedDag v0 v6 = Cert.KernelIdeal.Iter.kpayload v0 v6 := rfl

end Cert.KernelIdeal.Body

end
-- ==== Proof.Spec.lean ====
/-
  Soft k-means on the extended reals: one update of the centroids, and the law that lets the sum over all
  rows be taken four blocks of rows at a time.

  For a row x of the data and centroids C the (negated, scaled) squared distance to centroid k is
      logit x C k = -((|x|² + |C k|²) - 2·⟨x, C k⟩) / (1/2),
  the row's weights are the softmax of the logits, shifted by the row's maximum,
      weight x C k = exp (logit x C k - rowMax x C) / ∑ k', exp (logit x C k' - rowMax x C),
  and the update replaces centroid k by the weighted mean of the rows with a small number added to the total weight,
      step X C k d = (∑ n, weight (X n) C k · X n d) / ((∑ n, weight (X n) C k) + ε).
  The three numbers 2, 1/2 and ε are kept as the float words that denote them; -∞ is the word of the maximum's start.
-/
import Idealize.ShloMosaic.PureOps.Ideal
import Idealize.ShloMosaic.PureOps.Ideal.Laws

noncomputable section

open scoped BigOperators

namespace SoftKMeans

open Idealize.ShloMosaic

variable {D K N : Nat}

/-- The squared length of a vector. -/
def sqn (v : Fin D → EReal) : EReal := ∑ d, v d * v d

/-- The scaled negated squared distance of row `xr` to centroid `k`. -/
def logit (xr : Fin D → EReal) (C : Fin K → Fin D → EReal) (k : Fin K) : EReal :=
  Ideal.div (-((sqn xr + sqn (C k)) - Ideal.ofBits .f32 0x40000000#32 * ∑ d, xr d * C k d)) (Ideal.ofBits .f32 0x3F000000#32)

/-- The largest logit of the row (the maximum starts from -∞ and is once more compared with -∞). -/
def rowMax (xr : Fin D → EReal) (C : Fin K → Fin D → EReal) : EReal :=
  max (Ideal.ofBits .f32 0xFF800000#32) (Finset.univ.fold max (Ideal.ofBits .f32 0xFF800000#32) (logit xr C))

/-- The shifted exponential of a logit. -/
def expo (xr : Fin D → EReal) (C : Fin K → Fin D → EReal) (k : Fin K) : EReal :=
  Ideal.exp (logit xr C k - rowMax xr C)

/-- The softmax weight of centroid `k` for the row. -/
def weight (xr : Fin D → EReal) (C : Fin K → Fin D → EReal) (k : Fin K) : EReal :=
  Ideal.div (expo xr C k) (∑ k', expo xr C k')

/-- One update of the centroids. -/
def step (X : Fin N → Fin D → EReal) (C : Fin K → Fin D → EReal) (k : Fin K) (d : Fin D) : EReal :=
  Ideal.div (∑ n, weight (X n) C k * X n d) ((∑ n, weight (X n) C k) + Ideal.ofBits .f32 0x358637BD#32)

/-- Five updates. -/
def iter5 (X : Fin N → Fin D → EReal) (C : Fin K → Fin D → EReal) : Fin K → Fin D → EReal :=
  step X (step X (step X (step X (step X C))))

/-- Row `r` of block `j` of the 8192 rows cut into four blocks of 2048. -/
def rowAt (j : Fin 4) (r : Fin 2048) : Fin 8192 := ⟨2048 * j.val + r.val, by omega⟩

/-- A sum over the 8192 rows is the sum, block after block from zero, of the four blocks' sums: addition of extended
    reals is commutative and associative, so no finiteness is needed. -/
theorem sum_blocks (f : Fin 8192 → EReal) :
    ∑ n, f n = (((0 + ∑ r : Fin 2048, f (rowAt 0 r)) + ∑ r : Fin 2048, f (rowAt 1 r)) + ∑ r : Fin 2048, f (rowAt 2 r))
      + ∑ r : Fin 2048, f (rowAt 3 r) := by
  have h : ∑ n : Fin 8192, f n = ∑ p : Fin 4 × Fin 2048, f (rowAt p.1 p.2) := by
    refine (Fintype.sum_equiv (finProdFinEquiv (m := 4) (n := 2048)) (fun p => f (rowAt p.1 p.2)) f (fun p => ?_)).symm
    refine congrArg f (Fin.ext ?_)
    show 2048 * p.1.val + p.2.val = p.2.val + 2048 * p.1.val
    omega
  rw [h, Fintype.sum_prod_type, Fin.sum_univ_four, zero_add]

end SoftKMeans

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.KerIter.lean ====
/-
  One update of the centroids as the kernel computes it, read at an entry: it is the soft k-means update
  `SoftKMeans.step` of the block's rows and the current centroids. Read on the extended reals the roundings to bf16 are
  the identity, the difference from zero is the negation, and the four blocks' sums add up to the sum over all rows
  (`SoftKMeans.sum_blocks`).
-/
import proofs.«175411_j7876970021312_1_alg».proof.Proof.KerDefs
import proofs.«175411_j7876970021312_1_alg».proof.Proof.Spec
import proofs.«175411_j7876970021312_1_alg».proof.Proof.LibRowOps
import proofs.«175411_j7876970021312_1_alg».proof.Proof.LibSoftLayout
import Idealize.ShloMosaic.Lib.Pipeline.Value
import Idealize.ShloMosaic.Lib.ValueIdx
import Idealize.ShloMosaic.PureOps.Ideal.Laws

noncomputable section

open scoped BigOperators

namespace Cert.KernelIdeal.Iter

open Idealize.ShloMosaic Idealize.ShloMosaic.ValueIdx Cert.KernelIdeal Cert.KernelIdeal.Facts₀ Cert.KernelIdeal.Facts

section Apply

open SoftKMeans

/-- Row `r` of the block of rows starting at `off`. -/
def rowOf (off : Nat) (hoff : off + 2048 ≤ 8192) (r : Fin 2048) : Fin 8192 := ⟨off + r.val, by have := r.isLt; omega⟩

theorem rowOf_0 (h : 0 + 2048 ≤ 8192) (r : Fin 2048) : rowOf 0 h r = rowAt 0 r := Fin.ext (by show 0 + r.val = 2048 * 0 + r.val; omega)
theorem rowOf_1 (h : 2048 + 2048 ≤ 8192) (r : Fin 2048) : rowOf 2048 h r = rowAt 1 r := Fin.ext (by show 2048 + r.val = 2048 * 1 + r.val; omega)
theorem rowOf_2 (h : 4096 + 2048 ≤ 8192) (r : Fin 2048) : rowOf 4096 h r = rowAt 2 r := Fin.ext (by show 4096 + r.val = 2048 * 2 + r.val; omega)
theorem rowOf_3 (h : 6144 + 2048 ≤ 8192) (r : Fin 2048) : rowOf 6144 h r = rowAt 3 r := Fin.ext (by show 6144 + r.val = 2048 * 3 + r.val; omega)

/-- The centroids' squared lengths, read at an entry. -/
theorem cSq_apply (c : FVec Ideal S256x256 .f32) (C : Fin 256 → Fin 256 → EReal) (hc : ∀ k d, c (ix2 k d) = C k d) (k : Fin 256) : cSq c (ix1 k) = sqn (C k) := by
  unfold cSq SoftKMeans.sqn
  refine (SoftLayout.rowsum_apply _ _ _ _ k).trans ?_
  exact Finset.sum_congr rfl fun d _ => by rw [mulf_apply, hc]

/-- A block's logits, read at an entry: the logit of that row of x against that centroid. -/
theorem blockLogit_apply (off : Nat) (hoff : off + 2048 ≤ 8192) (h1 : S8192x256.Slices ![off, 0] S2048x256)
    (h2 : S8192x1.Slices ![off, 0] S2048x1) (xb : FVec Ideal S8192x256 .bf16) (x2 : FVec Ideal S8192x1 .f32) (X : Fin 8192 → Fin 256 → EReal)
    (hx : ∀ n d, xb (ix2 n d) = X n d) (hx2 : ∀ n z, x2 (ix2 n z) = sqn (X n))
    (c2 : FVec Ideal S256 .f32) (cb : FVec Ideal S256x256 .bf16) (C : Fin 256 → Fin 256 → EReal)
    (hc2 : ∀ k, c2 (ix1 k) = sqn (C k)) (hcb : ∀ k d, cb (ix2 k d) = C k d) (r : Fin 2048) (k : Fin 256) :
    blockLogit off h1 h2 xb x2 c2 cb (ix2 r k) = logit (X (rowOf off hoff r)) C k := by
  have hr : off + r.val < 8192 := by have := r.isLt; omega
  have p1 : broadcastTo S2048x256 (extractStridedSlice S2048x1 ![off, 0] x2 h2) broadcasts_S2048x1_S2048x256 (ix2 r k)
      = sqn (X (rowOf off hoff r)) :=
    (RowOps.col_to_apply _ _ r k).trans ((SoftLayout.rows_apply h2 x2 r 0 hr).trans (hx2 _ 0))
  have p2 : broadcastTo S2048x256 (shapeCast S1x256 c2 shapeCasts_S256_S1x256) broadcasts_S1x256_S2048x256 (ix2 r k)
      = sqn (C k) :=
    (SoftLayout.row_to_apply _ _ r k).trans ((SoftLayout.vec_row_cast_apply _ c2 0 k).trans (hc2 k))
  have p3 : matmul dot_S2048x256_S256x256_S2048x256_1_0_0_1_n_n none (extractStridedSlice S2048x256 ![off, 0] xb h1)
      (transpose S256x256 [1, 0] cb transposes_S256x256_p1_0_S256x256) (constant S2048x256 .f32 0x00000000#32) (ix2 r k)
      = ∑ d, X (rowOf off hoff r) d * C k d :=
    (RowOps.matmul_apply _ rfl none _ _ r k).trans (Finset.sum_congr rfl fun d _ => by
      rw [SoftLayout.rows_apply h1 xb r d hr, SoftLayout.transpose_apply, hx, hcb]; rfl)
  unfold blockLogit SoftKMeans.logit
  show Ideal.div (Ideal.ofBits .f32 0x00000000#32 - ((_ + _) - Ideal.ofBits .f32 0x40000000#32 * _)) (Ideal.ofBits .f32 0x3F000000#32) = _
  rw [p1, p2, p3, Ideal.ofBits_zero_f32, sub_eq_add_neg 0, zero_add]

/-- The shifted exponentials of a block, read at an entry. -/
theorem blockExp_apply (lg : FVec Ideal S2048x256 .f32) (Lg : Fin 2048 → Fin 256 → EReal)
    (h : ∀ r k, lg (ix2 r k) = Lg r k) (r : Fin 2048) (k : Fin 256) :
    blockExp lg (ix2 r k) = Ideal.exp (Lg r k - max (Ideal.ofBits .f32 0xFF800000#32)
      (Finset.univ.fold max (Ideal.ofBits .f32 0xFF800000#32) (Lg r))) := by
  unfold blockExp
  show Ideal.exp (lg (ix2 r k) - broadcastTo S2048x256 (shapeCast S2048x1 _ shapeCasts_S2048_S2048x1) broadcasts_S2048x1_S2048x256 (ix2 r k)) = _
  rw [h, RowOps.col_to_apply, SoftLayout.vec_col_cast_apply]
  show Ideal.exp (_ - max (Ideal.ofBits .f32 0xFF800000#32) (multiReduction .maximumf [1] S2048 lg 0xFF800000#32 reduces_S2048x256_S2048 (.inl rfl) rfl (ix1 r))) = _
  rw [SoftLayout.rowmax_apply]
  exact congrArg (fun f => Ideal.exp (Lg r k - max (Ideal.ofBits .f32 0xFF800000#32)
    (Finset.univ.fold max (Ideal.ofBits .f32 0xFF800000#32) f))) (funext fun q => h r q)

/-- A block's rows divided by their sums, read at an entry. -/
theorem blockNorm_apply (e : FVec Ideal S2048x256 .f32) (E : Fin 2048 → Fin 256 → EReal)
    (h : ∀ r k, e (ix2 r k) = E r k) (r : Fin 2048) (k : Fin 256) :
    blockNorm e (ix2 r k) = Ideal.div (E r k) (∑ k', E r k') := by
  unfold blockNorm
  show Ideal.div (e (ix2 r k)) (broadcastTo S2048x256 (shapeCast S2048x1 _ shapeCasts_S2048_S2048x1) broadcasts_S2048x1_S2048x256 (ix2 r k)) = _
  rw [h, RowOps.col_to_apply, SoftLayout.vec_col_cast_apply, SoftLayout.rowsum_apply]
  exact congrArg (Ideal.div (E r k)) (Finset.sum_congr rfl fun q _ => h r q)

/-- A block's softmax weights, read at an entry: the weight of that centroid for that row of x. -/
theorem wts_apply (off : Nat) (hoff : off + 2048 ≤ 8192) (h1 : S8192x256.Slices ![off, 0] S2048x256)
    (h2 : S8192x1.Slices ![off, 0] S2048x1) (xb : FVec Ideal S8192x256 .bf16) (x2 : FVec Ideal S8192x1 .f32) (X : Fin 8192 → Fin 256 → EReal)
    (hx : ∀ n d, xb (ix2 n d) = X n d) (hx2 : ∀ n z, x2 (ix2 n z) = sqn (X n)) (c : FVec Ideal S256x256 .f32) (C : Fin 256 → Fin 256 → EReal) (hc : ∀ k d, c (ix2 k d) = C k d) (r : Fin 2048) (k : Fin 256) :
    wts off h1 h2 xb x2 c (ix2 r k) = weight (X (rowOf off hoff r)) C k := by
  unfold wts
  have hl : ∀ r k, blockLogit off h1 h2 xb x2 (cSq c) (truncf .bf16 c bitsLt_bf16_f32) (ix2 r k)
      = logit (X (rowOf off hoff r)) C k := fun r k =>
    blockLogit_apply off hoff h1 h2 xb x2 X hx hx2 (cSq c) (truncf .bf16 c bitsLt_bf16_f32) C (cSq_apply c C hc)
      (fun k d => hc k d) r k
  have he : ∀ r k, blockExp (blockLogit off h1 h2 xb x2 (cSq c) (truncf .bf16 c bitsLt_bf16_f32)) (ix2 r k)
      = expo (X (rowOf off hoff r)) C k := fun r k =>
    blockExp_apply (blockLogit off h1 h2 xb x2 (cSq c) (truncf .bf16 c bitsLt_bf16_f32))
      (fun r k => logit (X (rowOf off hoff r)) C k) hl r k
  exact blockNorm_apply _ (fun r k => expo (X (rowOf off hoff r)) C k) he r k

/-- The total weight plus a block's column sums, read at an entry. -/
theorem denAdd_apply (den : FVec Ideal S256 .f32) (w : FVec Ideal S2048x256 .f32) (k : Fin 256) :
    denAdd den w (ix1 k) = den (ix1 k) + ∑ r : Fin 2048, w (ix2 r k) := by
  unfold denAdd
  show den (ix1 k) + multiReduction .add [0] S256 w 0x00000000#32 reduces_S2048x256_S256 (.inl rfl) rfl (ix1 k) = _
  rw [SoftLayout.colsum_apply]

/-- The weighted sum plus a block's (weights)ᵀ·x, read at an entry. -/
theorem accAdd_apply (off : Nat) (hoff : off + 2048 ≤ 8192) (h1 : S8192x256.Slices ![off, 0] S2048x256)
    (acc : FVec Ideal S256x256 .f32) (w : FVec Ideal S2048x256 .f32) (xb : FVec Ideal S8192x256 .bf16) (k d : Fin 256) :
    accAdd off h1 acc w xb (ix2 k d) = acc (ix2 k d) + ∑ r : Fin 2048, w (ix2 r k) * xb (ix2 (rowOf off hoff r) d) := by
  unfold accAdd
  show acc (ix2 k d) + matmul dot_S256x2048_S2048x256_S256x256_1_0_0_1_n_n none _ _ (constant S256x256 .f32 0x00000000#32) (ix2 k d) = _
  refine congrArg (acc (ix2 k d) + ·) ((RowOps.matmul_apply dot_S256x2048_S2048x256_S256x256_1_0_0_1_n_n rfl none _ _ k d).trans
    (Finset.sum_congr rfl fun r _ => ?_))
  have hr : off + r.val < 8192 := by have := r.isLt; omega
  rw [SoftLayout.transpose_apply, SoftLayout.rows_apply h1 xb r d hr]
  rfl

/-- The total weight of a centroid over all rows. -/
theorem kden_apply (xb : FVec Ideal S8192x256 .bf16) (x2 : FVec Ideal S8192x1 .f32) (X : Fin 8192 → Fin 256 → EReal)
    (hx : ∀ n d, xb (ix2 n d) = X n d) (hx2 : ∀ n z, x2 (ix2 n z) = sqn (X n)) (c : FVec Ideal S256x256 .f32) (C : Fin 256 → Fin 256 → EReal) (hc : ∀ k d, c (ix2 k d) = C k d) (k : Fin 256) :
    kden xb x2 c (ix1 k) = ∑ n, weight (X n) C k := by
  unfold kden
  rw [denAdd_apply, denAdd_apply, denAdd_apply, denAdd_apply, sum_blocks (fun n => weight (X n) C k)]
  simp only [wts_apply 0 (by decide) _ _ xb x2 X hx hx2 c C hc, wts_apply 2048 (by decide) _ _ xb x2 X hx hx2 c C hc,
    wts_apply 4096 (by decide) _ _ xb x2 X hx hx2 c C hc, wts_apply 6144 (by decide) _ _ xb x2 X hx hx2 c C hc,
    rowOf_0, rowOf_1, rowOf_2, rowOf_3]
  show (((Ideal.ofBits .f32 0x00000000#32 + _) + _) + _) + _ = _
  rw [Ideal.ofBits_zero_f32]

/-- The weighted sum of the rows for a centroid, over all rows. -/
theorem kacc_apply (xb : FVec Ideal S8192x256 .bf16) (x2 : FVec Ideal S8192x1 .f32) (X : Fin 8192 → Fin 256 → EReal)
    (hx : ∀ n d, xb (ix2 n d) = X n d) (hx2 : ∀ n z, x2 (ix2 n z) = sqn (X n)) (c : FVec Ideal S256x256 .f32) (C : Fin 256 → Fin 256 → EReal) (hc : ∀ k d, c (ix2 k d) = C k d) (k d : Fin 256) :
    kacc xb x2 c (ix2 k d) = ∑ n, weight (X n) C k * X n d := by
  unfold kacc
  rw [accAdd_apply 6144 (by decide), accAdd_apply 4096 (by decide), accAdd_apply 2048 (by decide), accAdd_apply 0 (by decide),
    sum_blocks (fun n => weight (X n) C k * X n d)]
  simp only [wts_apply 0 (by decide) _ _ xb x2 X hx hx2 c C hc, wts_apply 2048 (by decide) _ _ xb x2 X hx hx2 c C hc,
    wts_apply 4096 (by decide) _ _ xb x2 X hx hx2 c C hc, wts_apply 6144 (by decide) _ _ xb x2 X hx hx2 c C hc,
    hx, rowOf_0, rowOf_1, rowOf_2, rowOf_3]
  show (((Ideal.ofBits .f32 0x00000000#32 + _) + _) + _) + _ = _
  rw [Ideal.ofBits_zero_f32]

/-- One update of the centroids as the kernel computes it is the soft k-means update. -/
theorem kiter_apply (xb : FVec Ideal S8192x256 .bf16) (x2 : FVec Ideal S8192x1 .f32) (X : Fin 8192 → Fin 256 → EReal)
    (hx : ∀ n d, xb (ix2 n d) = X n d) (hx2 : ∀ n z, x2 (ix2 n z) = sqn (X n)) (c : FVec Ideal S256x256 .f32) (C : Fin 256 → Fin 256 → EReal) (hc : ∀ k d, c (ix2 k d) = C k d) (k d : Fin 256) :
    kiter xb x2 c (ix2 k d) = step X C k d := by
  unfold kiter SoftKMeans.step
  show Ideal.div (kacc xb x2 c (ix2 k d)) (broadcastTo S256x256 (shapeCast S256x1 _ shapeCasts_S256_S256x1) broadcasts_S256x1_S256x256 (ix2 k d)) = _
  rw [kacc_apply xb x2 X hx hx2 c C hc, RowOps.col_to_apply, SoftLayout.vec_col_cast_apply]
  show Ideal.div _ (kden xb x2 c (ix1 k) + Ideal.ofBits .f32 0x358637BD#32) = _
  rw [kden_apply xb x2 X hx hx2 c C hc]

/-- The rows of x as the matmuls take them: entry (n, d) of the block. -/
theorem kx_apply (v0 : Vec Ideal S1x8192x256 .f32) (n : Fin 8192) (d : Fin 256) :
    kx v0 (ix2 n d) = v0 (ix3 (0 : Fin 1) n d) :=
  SoftLayout.drop_lead_apply shapeCasts_S1x8192x256_S8192x256 v0 n d

/-- The rows' squared lengths. -/
theorem kx2_apply (v0 : Vec Ideal S1x8192x256 .f32) (n : Fin 8192) (z : Fin 1) :
    kx2 v0 (ix2 n z) = sqn (fun d => v0 (ix3 (0 : Fin 1) n d)) := by
  unfold kx2 SoftKMeans.sqn
  rw [SoftLayout.vec_col_cast_apply, SoftLayout.rowsum_apply]
  exact Finset.sum_congr rfl fun d _ => by
    rw [mulf_apply, SoftLayout.drop_lead_apply]

/-- What the kernel stores, read at an entry: five soft k-means updates of the block of initial centroids on the block
    of x. -/
theorem kpayload_apply (v0 : Vec Ideal S1x8192x256 .f32) (v6 : Vec Ideal S1x256x256 .f32) (z : Fin 1) (k d : Fin 256) :
    kpayload v0 v6 (ix3 z k d)
      = iter5 (fun n d => v0 (ix3 (0 : Fin 1) n d)) (fun k d => v6 (ix3 (0 : Fin 1) k d)) k d := by
  unfold kpayload SoftKMeans.iter5
  rw [SoftLayout.add_lead_apply]
  have hx := kx_apply v0
  have hx2 := kx2_apply v0
  have h0 : ∀ k d, shapeCast S256x256 v6 shapeCasts_S1x256x256_S256x256 (ix2 k d) = v6 (ix3 (0 : Fin 1) k d) :=
    fun k d => SoftLayout.drop_lead_apply shapeCasts_S1x256x256_S256x256 v6 k d
  have h1 := kiter_apply (kx v0) (kx2 v0) _ hx hx2 _ _ h0
  have h2 := kiter_apply (kx v0) (kx2 v0) _ hx hx2 _ _ h1
  have h3 := kiter_apply (kx v0) (kx2 v0) _ hx hx2 _ _ h2
  have h4 := kiter_apply (kx v0) (kx2 v0) _ hx hx2 _ _ h3
  exact kiter_apply (kx v0) (kx2 v0) _ hx hx2 _ _ h4 k d

/-- The same at any entry of the block. -/
theorem kpayload_at (v0 : Vec Ideal S1x8192x256 .f32) (v6 : Vec Ideal S1x256x256 .f32) (j : S1x256x256.Idx) :
    kpayload v0 v6 j
      = iter5 (fun n d => v0 (ix3 (0 : Fin 1) n d)) (fun k d => v6 (ix3 (0 : Fin 1) k d)) (j 1) (j 2) := by
  exact (congrArg (kpayload v0 v6) (eq_ix3 j)).trans (kpayload_apply v0 v6 (j 0) (j 1) (j 2))

end Apply

end Cert.KernelIdeal.Iter

end
-- ==== Proof.KerValue.lean ====
/-
  What the kernel leaves in its result array: block b of the array is what grid point b stores, five soft k-means
  updates of block b of x and block b of the initial centroids; the eight blocks tile the array, so the whole array is
  one function `G` of x and of the initial centroids, which the host picks from x before the kernel is launched.
-/
import proofs.«175411_j7876970021312_1_alg».proof.Proof.FrameKI
import proofs.«175411_j7876970021312_1_alg».proof.Proof.KerIter
import proofs.«175411_j7876970021312_1_alg».proof.Proof.KerBody
import Idealize.ShloMosaic.Lib.Pipeline.Value
import Idealize.ShloMosaic.Lib.StableHlo.Run

noncomputable section

namespace Cert.KernelIdeal.KValue

open Cert.KernelIdeal Cert.KernelIdeal.Gen Cert.KernelIdeal.GenP Cert.KernelIdeal.Iter
open Idealize.ShloMosaic Idealize.ShloMosaic.TcCoe Idealize.SL.Sem Idealize.ShloMosaic.ValueIdx SoftKMeans
open Idealize.ShloMosaic.Pipeline (Dat)

/-- The initial centroids: for each batch element the rows of x the indices name, a negative index counted from the
    end. -/
def c0 {F : FTy → Type} [FloatOps F] (x : (⟨S8x8192x256, .f32⟩ : BufTy).Contents (Elt F))
    (idx : (⟨S8x256, .i32⟩ : BufTy).Contents (Elt F)) : (⟨S8x256x256, .f32⟩ : BufTy).Contents (Elt F) :=
  Host.gather gather_S8x8192x256_S8x256x1_S8x256x256_2_1_0_0_1_2_11256 x (broadcastInDim S8x256x1 ![0, 1] bcast_S8x256_S8x256x1_0_1 (select (cmpi .slt idx (broadcastInDim S8x256 ![] bcast_S_S8x256 (constantI S_ 32 0#32))) (addi idx (broadcastInDim S8x256 ![] bcast_S_S8x256 (constantI S_ 32 8192#32))) idx))

/-- The result array as one function of x and the initial centroids: entry (b, k, d) is entry (k, d) of five updates
    of batch element b's rows and initial centroids. -/
def G (x : S8x8192x256.Idx → EReal) (cc : S8x256x256.Idx → EReal) : S8x256x256.Idx → EReal :=
  fun i => iter5 (fun n d => x (ix3 (i 0) n d)) (fun k d => cc (ix3 (i 0) k d)) (i 1) (i 2)

theorem iter5_congr {X X' : Fin 8192 → Fin 256 → EReal} {C C' : Fin 256 → Fin 256 → EReal} {k k' d d' : Fin 256}
    (hX : X = X') (hC : C = C') (hk : k = k') (hd : d = d') : iter5 X C k d = iter5 X' C' k' d' := by
  subst hX hC hk hd; rfl

variable (m : (ℓ : Loc nD τ sig) → Buf (Elt Ideal) ℓ) (ρ : Dev nD → PrngReg)

/-- The array of initial centroids as the region finds it: the host's pick of rows of x. -/
theorem V_main_v6 (c : Dev nD) : (V m c main_v6 : S8x256x256.Idx → EReal)
    = c0 (m ((c : Thread nD τ).loc main_arg0)) (m ((c : Thread nD τ).loc main_arg1)) := by
  dsimp only [GenP.V, hostOps0]
  after_results
  rfl

theorem hz : (![0, 0, 0] : Fin 3 → Nat) = fun _ => 0 := funext fun a => by fin_cases a <;> rfl

/-- The three windows' index maps over the grid: block b of each array at point b. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0 ∧ win0_2.index t (0 : Fin 3) < 8 :=
  (by decide +kernel : ∀ t : Fin grid0.N, _)

/-- Every block of the result array is some point's. -/
theorem idx_onto : ∀ q : Fin 8, ∃ t : Fin cfg0.N, win0_2.index t = ![q.val, 0, 0] :=
  (by decide +kernel : ∀ q : Fin 8, ∃ t : Fin grid0.N, win0_2.index t = ![q.val, 0, 0])

/-- What point `t` writes back is block `t` of `G`. -/
theorem flushed_eq (c : Dev nD) (t : Fin cfg0.N) :
    (dats m 0 c).flushed 2 t = ((cfg0.win 2).blk t).view.read (Elt Ideal) (G (V m c main_arg0) (V m c main_v6)) := by
  show (cfg0.win 2).cut (grid0.coords t) ((dats m 0 c).after 2 t) = _
  rw [after0_2]
  unfold out0_2
  rw [View.canon_unit_zero hz]
  simp only [View.ld_unit_zero (S := S1x8192x256) hz, View.ld_unit_zero (S := S1x256x256) hz]
  obtain ⟨e0, e1, e2, e3, e4, e5, e6, e7, e8⟩ := idx_facts t
  funext j
  show Cert.KernelIdeal.Body.storedDag (iblk m c 0 t) (iblk m c 1 t) j = G (V m c main_arg0) (V m c main_v6) (((cfg0.win 2).blk t).view.emb j)
  refine (congrFun (Cert.KernelIdeal.Body.storedDag_eq (iblk m c 0 t) (iblk m c 1 t)) j).trans ?_
  refine (kpayload_at (iblk m c 0 t) (iblk m c 1 t) j).trans ?_
  have hj0 : (j 0).val < 1 := (j 0).isLt
  have hj1 : (j 1).val < 256 := (j 1).isLt
  have hj2 : (j 2).val < 256 := (j 2).isLt
  refine iter5_congr (funext fun n => funext fun d => ?_) (funext fun k => funext fun d => ?_) (Fin.ext ?_) (Fin.ext ?_)
  · show V m c main_arg0 (((cfg0.win 0).blk t).view.emb (ix3 (0 : Fin 1) n d)) = V m c main_arg0 _
    refine congrArg (V m c main_arg0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 8192 + 1 * n.val = n.val; omega
    | ⟨2, _⟩ => show win0_0.index t (2 : Fin 3) * 256 + 1 * d.val = d.val; omega
  · show V m c main_v6 (((cfg0.win 1).blk t).view.emb (ix3 (0 : Fin 1) k d)) = V m c main_v6 _
    refine congrArg (V m c main_v6) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 256 + 1 * k.val = k.val; omega
    | ⟨2, _⟩ => show win0_1.index t (2 : Fin 3) * 256 + 1 * d.val = d.val; omega
  · show (j 1).val = win0_2.index t (1 : Fin 3) * 256 + 1 * (j 1).val; omega
  · show (j 2).val = win0_2.index t (2 : Fin 3) * 256 + 1 * (j 2).val; omega

/-- An index of the array is in point `t`'s block iff each coordinate is in the block's range on its axis. -/
theorem mem_blk (t : Fin cfg0.N) (i : S8x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v7).slice (win0_2.rect t)).set ↔ _
  rw [View.set_slice_whole, Rect.mem_set_unit]
  exact Iff.rfl

/-- The eight blocks tile the array. -/
theorem cover (i : S8x256x256.Idx) : ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 256 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- The result array after the run is `G` of x and the host's pick of initial centroids. -/
theorem final (c : Dev nD) : (dats m 0 c).arrAt 2 cfg0.N
    = G (m ((c : Thread nD τ).loc main_arg0)) (c0 (m ((c : Thread nD τ).loc main_arg0)) (m ((c : Thread nD τ).loc main_arg1))) := by
  rw [(dats m 0 c).arrAt_eq_of_cover 2 (G (V m c main_arg0) (V m c main_v6)) (fun t _ => flushed_eq m c t) cover,
    V_main_arg0, V_main_v6]

/-- Every weakly fair execution of the kernel's program ends with its result array at `G`, the arguments unchanged. -/
theorem run : θ_run defs (onTc (τ := τ) (main (F := Ideal))) ⟨m, fun _ => 0, ρ⟩ fun r => ∀ c : Dev nD,
      r.2.mem ((c : Thread nD τ).loc main_v7)
        = G (m ((c : Thread nD τ).loc main_arg0)) (c0 (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.KValue

end
-- ==== Proof.LibBatchLayout.lean ====
/-
  Arrays with a leading batch axis read at an entry, for any extents: a matrix [a, b] given a unit last axis [a, b, 1] or
  a unit middle axis [a, 1, c]; such an array spread over [a, b, c]; a number spread over any shape; the sum and the
  maximum of [a, b, c] along its last axis, and the sum along its middle axis, as the host computes them from a
  starting value.
-/
import Idealize.ShloMosaic.Lib.Pipeline.Value
import Idealize.ShloMosaic.Lib.ValueIdx
import Idealize.ShloMosaic.PureOps.Ideal.Laws

noncomputable section

open scoped BigOperators

namespace BatchLayout

open Idealize.ShloMosaic Idealize.ShloMosaic.ValueIdx

variable {α : Type}

/-- A matrix [a, b] given a unit last axis: entry (p, q, 0) is entry (p, q). -/
theorem unit_last_apply {a b : Nat} (h : (⟨2, ![a, b]⟩ : Shape).BroadcastsInDim ⟨3, ![a, b, 1]⟩ (![0, 1] : Fin 2 → Fin 3))
    (v : (⟨2, ![a, b]⟩ : Shape).Idx → α) (p : Fin a) (q : Fin b) (z : Fin 1) :
    broadcastInDim ⟨3, ![a, b, 1]⟩ ![0, 1] h v (ix3 p q z) = v (ix2 p q) :=
  broadcastInDim_apply _ h v (ix3 p q z) (ix2 p q) (fun ax => match ax with
    | ⟨0, _⟩ => by
      show p.val = if a = 1 then 0 else p.val
      split
      · have := p.isLt; omega
      · rfl
    | ⟨1, _⟩ => by
      show q.val = if b = 1 then 0 else q.val
      split
      · have := q.isLt; omega
      · rfl)

/-- A matrix [a, c] given a unit middle axis: entry (p, 0, r) is entry (p, r). -/
theorem unit_mid_apply {a c : Nat} (h : (⟨2, ![a, c]⟩ : Shape).BroadcastsInDim ⟨3, ![a, 1, c]⟩ (![0, 2] : Fin 2 → Fin 3))
    (v : (⟨2, ![a, c]⟩ : Shape).Idx → α) (p : Fin a) (z : Fin 1) (r : Fin c) :
    broadcastInDim ⟨3, ![a, 1, c]⟩ ![0, 2] h v (ix3 p z r) = v (ix2 p r) :=
  broadcastInDim_apply _ h v (ix3 p z r) (ix2 p r) (fun ax => match ax with
    | ⟨0, _⟩ => by
      show p.val = if a = 1 then 0 else p.val
      split
      · have := p.isLt; omega
      · rfl
    | ⟨1, _⟩ => by
      show r.val = if c = 1 then 0 else r.val
      split
      · have := r.isLt; omega
      · rfl)

/-- [a, b, 1] spread over [a, b, c]: entry (p, q, r) is entry (p, q, 0). -/
theorem spread_last_apply {a b c : Nat}
    (h : (⟨3, ![a, b, 1]⟩ : Shape).BroadcastsInDim ⟨3, ![a, b, c]⟩ (![0, 1, 2] : Fin 3 → Fin 3))
    (v : (⟨3, ![a, b, 1]⟩ : Shape).Idx → α) (p : Fin a) (q : Fin b) (r : Fin c) :
    broadcastInDim ⟨3, ![a, b, c]⟩ ![0, 1, 2] h v (ix3 p q r) = v (ix3 p q (0 : Fin 1)) :=
  broadcastInDim_apply _ h v (ix3 p q r) (ix3 p q (0 : Fin 1)) (fun ax => match ax with
    | ⟨0, _⟩ => by
      show p.val = if a = 1 then 0 else p.val
      split
      · have := p.isLt; omega
      · rfl
    | ⟨1, _⟩ => by
      show q.val = if b = 1 then 0 else q.val
      split
      · have := q.isLt; omega
      · rfl
    | ⟨2, _⟩ => by
      show (0 : Nat) = if (1 : Nat) = 1 then 0 else r.val
      rfl)

/-- [a, 1, c] spread over [a, b, c]: entry (p, q, r) is entry (p, 0, r). -/
theorem spread_mid_apply {a b c : Nat}
    (h : (⟨3, ![a, 1, c]⟩ : Shape).BroadcastsInDim ⟨3, ![a, b, c]⟩ (![0, 1, 2] : Fin 3 → Fin 3))
    (v : (⟨3, ![a, 1, c]⟩ : Shape).Idx → α) (p : Fin a) (q : Fin b) (r : Fin c) :
    broadcastInDim ⟨3, ![a, b, c]⟩ ![0, 1, 2] h v (ix3 p q r) = v (ix3 p (0 : Fin 1) r) :=
  broadcastInDim_apply _ h v (ix3 p q r) (ix3 p (0 : Fin 1) r) (fun ax => match ax with
    | ⟨0, _⟩ => by
      show p.val = if a = 1 then 0 else p.val
      split
      · have := p.isLt; omega
      · rfl
    | ⟨1, _⟩ => by
      show (0 : Nat) = if (1 : Nat) = 1 then 0 else q.val
      rfl
    | ⟨2, _⟩ => by
      show r.val = if c = 1 then 0 else r.val
      split
      · have := r.isLt; omega
      · rfl)

/-- A number spread over any shape: every entry is the number. -/
theorem splat_apply {t : Shape} (h : (⟨0, ![]⟩ : Shape).BroadcastsInDim t (![] : Fin 0 → Fin t.rank))
    (v : (⟨0, ![]⟩ : Shape).Idx → α) (j : t.Idx) :
    broadcastInDim t ![] h v j = v ix0 :=
  broadcastInDim_apply _ h v j ix0 (fun ax => ax.elim0)

/-- The host's sum of [a, b, c] along the last axis: the starting value plus the sum over r of entry (p, q, r). -/
theorem hsum_last_apply {a b c : Nat} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ r : Fin c, x (ix3 p q r) := by
  simp only [Host.reduceAdd, Ideal.hostReduceAdd_def]
  rw [Ideal.hostReduceAdd_single h' h]
  refine congrArg (_ + ·) (Finset.sum_congr rfl fun r _ => ?_)
  exact congrArg x (funext fun ax => Fin.ext (by match ax with | ⟨0, _⟩ => rfl | ⟨1, _⟩ => rfl | ⟨2, _⟩ => rfl))

/-- The host's sum of [a, b, c] along the middle axis: the starting value plus the sum over q of entry (p, q, r). -/
theorem hsum_mid_apply {a b c : Nat} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduceAdd x init h' hu (ix2 p r) = init (Shape.Idx.first hu) + ∑ q : Fin b, x (ix3 p q r) := by
  simp only [Host.reduceAdd, Ideal.hostReduceAdd_def]
  rw [Ideal.hostReduceAdd_single h' h]
  refine congrArg (_ + ·) (Finset.sum_congr rfl fun q _ => ?_)
  exact congrArg x (funext fun ax => Fin.ext (by match ax with | ⟨0, _⟩ => rfl | ⟨1, _⟩ => rfl | ⟨2, _⟩ => rfl))

/-- The host's maximum of [a, b, c] along the last axis: the fold of `max` from the starting value over r of entry
    (p, q, r). -/
theorem hmax_last_apply {a b c : Nat} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun r => x (ix3 p q r)) := by
  show Host.reduce (max : EReal → EReal → EReal) x init h' hu (ix2 p q) = _
  rw [Host.reduce_eq_fold_single (max : EReal → EReal → EReal) x init h' h hu (ix2 p q)]
  exact congrArg (fun f => (Finset.univ : Finset (Fin c)).fold max (init (Shape.Idx.first hu)) f)
    (funext fun r => congrArg x (funext fun ax => Fin.ext (by match ax with | ⟨0, _⟩ => rfl | ⟨1, _⟩ => rfl | ⟨2, _⟩ => rfl)))

end BatchLayout

end
-- ==== Proof.RefIter.lean ====
/-
  One update of the centroids as the reference computes it on the whole batch at once, written as a function of the
  reference's values — x, the rows' squared lengths (with a unit last axis), and the current centroids — and read at an
  entry: for batch element b it is the soft k-means update `SoftKMeans.step` of that element's rows and centroids.
  The reference's sums start from the number zero, and its negation is the difference from zero the kernel takes.
-/
import proofs.«175411_j7876970021312_1_alg».proof.Proof.Gen.ReferenceIdeal
import proofs.«175411_j7876970021312_1_alg».proof.Proof.Spec
import proofs.«175411_j7876970021312_1_alg».proof.Proof.LibBatchLayout
import Idealize.ShloMosaic.Lib.Pipeline.Value
import Idealize.ShloMosaic.Lib.ValueIdx
import Idealize.ShloMosaic.PureOps.Ideal.Laws

noncomputable section

open scoped BigOperators

namespace Cert.ReferenceIdeal.Iter

open Idealize.ShloMosaic Idealize.ShloMosaic.ValueIdx Cert.ReferenceIdeal Cert.ReferenceIdeal.Facts₀ Cert.ReferenceIdeal.Facts

section Defs

variable {F : FTy → Type} [FloatOps F]

/-- The rows' squared lengths, with a unit last axis. -/
def hx2 (x : FVec F S8x8192x256 .f32) : FVec F S8x8192x1 .f32 :=
  broadcastInDim S8x8192x1 ![0, 1] bcast_S8x8192_S8x8192x1_0_1 (Host.reduceAdd (mulf x x) (constant S_ .f32 0x00000000#32) reducesTo_S8x8192x256_S8x8192_d2 h_S_)

/-- The logits of every row against every centroid. -/
def hlogit (x : FVec F S8x8192x256 .f32) (x2 : FVec F S8x8192x1 .f32) (c : FVec F S8x256x256 .f32) : FVec F S8x8192x256 .f32 :=
  Host.divf (Host.negf (subf (addf (broadcastInDim S8x8192x256 ![0, 1, 2] bcast_S8x8192x1_S8x8192x256_0_1_2 x2) (broadcastInDim S8x8192x256 ![0, 1, 2] bcast_S8x1x256_S8x8192x256_0_1_2 (broadcastInDim S8x1x256 ![0, 2] bcast_S8x256_S8x1x256_0_2 (Host.reduceAdd (mulf c c) (constant S_ .f32 0x00000000#32) reducesTo_S8x256x256_S8x256_d2 h_S_)))) (mulf (broadcastInDim S8x8192x256 ![] bcast_S_S8x8192x256 (constant S_ .f32 0x40000000#32)) (Host.dotGeneral dot_S8x8192x256_S8x256x256_S8x8192x256_2_2_1_1_0_0 none x c)))) (broadcastInDim S8x8192x256 ![] bcast_S_S8x8192x256 (constant S_ .f32 0x3F000000#32))

/-- The exponentials of the logits, each row shifted by its maximum. -/
def hexp (lg : FVec F S8x8192x256 .f32) : FVec F S8x8192x256 .f32 :=
  Host.exp (subf lg (broadcastInDim S8x8192x256 ![0, 1, 2] bcast_S8x8192x1_S8x8192x256_0_1_2 (broadcastInDim S8x8192x1 ![0, 1] bcast_S8x8192_S8x8192x1_0_1 (maximumf (broadcastInDim S8x8192 ![] bcast_S_S8x8192 (constant S_ .f32 0xFF800000#32)) (Host.reduce FloatOps.maximumf lg (constant S_ .f32 0xFF800000#32) reducesTo_S8x8192x256_S8x8192_d2 h_S_)))))

/-- Each row of exponentials divided by the row's sum. -/
def hnorm (e : FVec F S8x8192x256 .f32) : FVec F S8x8192x256 .f32 :=
  Host.divf e (broadcastInDim S8x8192x256 ![0, 1, 2] bcast_S8x8192x1_S8x8192x256_0_1_2 (broadcastInDim S8x8192x1 ![0, 1] bcast_S8x8192_S8x8192x1_0_1 (Host.reduceAdd e (constant S_ .f32 0x00000000#32) reducesTo_S8x8192x256_S8x8192_d2 h_S_)))

/-- The weighted means: (weights)ᵀ·x over the total weights plus ε. -/
def hupd (x : FVec F S8x8192x256 .f32) (w : FVec F S8x8192x256 .f32) : FVec F S8x256x256 .f32 :=
  Host.divf (Host.dotGeneral dot_S8x8192x256_S8x8192x256_S8x256x256_1_1_2_2_0_0 none w x) (broadcastInDim S8x256x256 ![0, 1, 2] bcast_S8x256x1_S8x256x256_0_1_2 (addf (broadcastInDim S8x256x1 ![0, 1] bcast_S8x256_S8x256x1_0_1 (Host.reduceAdd w (constant S_ .f32 0x00000000#32) reducesTo_S8x8192x256_S8x256_d1 h_S_)) (broadcastInDim S8x256x1 ![] bcast_S_S8x256x1 (constant S_ .f32 0x358637BD#32))))

/-- One update of the centroids. -/
def hiter (x : FVec F S8x8192x256 .f32) (x2 : FVec F S8x8192x1 .f32) (c : FVec F S8x256x256 .f32) : FVec F S8x256x256 .f32 :=
  hupd x (hnorm (hexp (hlogit x x2 c)))

end Defs

section Apply

open SoftKMeans

theorem red_x_last : S8x8192x256.Reduces [2] S8x8192 := by decide
theorem red_c_last : S8x256x256.Reduces [2] S8x256 := by decide
theorem red_x_mid : S8x8192x256.Reduces [1] S8x256 := by decide

/-! The operand indices of the two products, coordinate by coordinate. -/

theorem lhsA_0 (i : S8x8192x256.Idx) (q : (dot_S8x8192x256_S8x256x256_S8x8192x256_2_2_1_1_0_0).contr.Idx) :
    ((dot_S8x8192x256_S8x256x256_S8x8192x256_2_2_1_1_0_0).lhsIdx i q 0).val = (i 0).val := by
  unfold DotDims.lhsIdx
  rw [dif_pos (show (0 : Fin S8x8192x256.rank) ∈ (dot_S8x8192x256_S8x256x256_S8x8192x256_2_2_1_1_0_0).lhsBatch by decide)]
  rfl
theorem lhsA_1 (i : S8x8192x256.Idx) (q : (dot_S8x8192x256_S8x256x256_S8x8192x256_2_2_1_1_0_0).contr.Idx) :
    ((dot_S8x8192x256_S8x256x256_S8x8192x256_2_2_1_1_0_0).lhsIdx i q 1).val = (i 1).val := by
  unfold DotDims.lhsIdx
  rw [dif_neg (show ¬(1 : Fin S8x8192x256.rank) ∈ (dot_S8x8192x256_S8x256x256_S8x8192x256_2_2_1_1_0_0).lhsBatch by decide),
    dif_pos (show (1 : Fin S8x8192x256.rank) ∈ (dot_S8x8192x256_S8x256x256_S8x8192x256_2_2_1_1_0_0).lhsNonContracting by decide)]
  rfl
theorem lhsA_2 (i : S8x8192x256.Idx) (q : (dot_S8x8192x256_S8x256x256_S8x8192x256_2_2_1_1_0_0).contr.Idx) :
    ((dot_S8x8192x256_S8x256x256_S8x8192x256_2_2_1_1_0_0).lhsIdx i q 2).val = (q ⟨0, by decide⟩).val :=
  (dot_S8x8192x256_S8x256x256_S8x8192x256_2_2_1_1_0_0).lhsIdx_val_of_single rfl i q
theorem rhsA_0 (i : S8x8192x256.Idx) (q : (dot_S8x8192x256_S8x256x256_S8x8192x256_2_2_1_1_0_0).contr.Idx) :
    ((dot_S8x8192x256_S8x256x256_S8x8192x256_2_2_1_1_0_0).rhsIdx i q 0).val = (i 0).val := by
  unfold DotDims.rhsIdx
  rw [dif_pos (show (0 : Fin S8x256x256.rank) ∈ (dot_S8x8192x256_S8x256x256_S8x8192x256_2_2_1_1_0_0).rhsBatch by decide)]
  rfl
theorem rhsA_1 (i : S8x8192x256.Idx) (q : (dot_S8x8192x256_S8x256x256_S8x8192x256_2_2_1_1_0_0).contr.Idx) :
    ((dot_S8x8192x256_S8x256x256_S8x8192x256_2_2_1_1_0_0).rhsIdx i q 1).val = (i 2).val := by
  unfold DotDims.rhsIdx
  rw [dif_neg (show ¬(1 : Fin S8x256x256.rank) ∈ (dot_S8x8192x256_S8x256x256_S8x8192x256_2_2_1_1_0_0).rhsBatch by decide),
    dif_pos (show (1 : Fin S8x256x256.rank) ∈ (dot_S8x8192x256_S8x256x256_S8x8192x256_2_2_1_1_0_0).rhsNonContracting by decide)]
  rfl
theorem rhsA_2 (i : S8x8192x256.Idx) (q : (dot_S8x8192x256_S8x256x256_S8x8192x256_2_2_1_1_0_0).contr.Idx) :
    ((dot_S8x8192x256_S8x256x256_S8x8192x256_2_2_1_1_0_0).rhsIdx i q 2).val = (q ⟨0, by decide⟩).val :=
  (dot_S8x8192x256_S8x256x256_S8x8192x256_2_2_1_1_0_0).rhsIdx_val_of_single rfl i q

/-- The product x·cᵀ within each batch element: entry (b, n, k) is the sum over d of x(b, n, d) · c(b, k, d). -/
theorem dotA_apply (x : FVec Ideal S8x8192x256 .f32) (c : FVec Ideal S8x256x256 .f32) (b : Fin 8) (n : Fin 8192) (k : Fin 256) :
    Host.dotGeneral dot_S8x8192x256_S8x256x256_S8x8192x256_2_2_1_1_0_0 none x c (ix3 b n k)
      = ∑ d : Fin 256, x (ix3 b n d) * c (ix3 b k d) := by
  simp only [Host.dotGeneral]
  rw [Ideal.dotGeneral_apply, ← Equiv.sum_comp (ValueIdx.contrEquiv1 dot_S8x8192x256_S8x256x256_S8x8192x256_2_2_1_1_0_0 256 rfl rfl).symm]
  refine Finset.sum_congr rfl fun d _ => ?_
  have hk := ValueIdx.contrEquiv1_symm_val dot_S8x8192x256_S8x256x256_S8x8192x256_2_2_1_1_0_0 256 rfl rfl d
  have el : (dot_S8x8192x256_S8x256x256_S8x8192x256_2_2_1_1_0_0).lhsIdx (ix3 b n k)
      ((ValueIdx.contrEquiv1 dot_S8x8192x256_S8x256x256_S8x8192x256_2_2_1_1_0_0 256 rfl rfl).symm d) = ix3 b n d :=
    funext fun a => Fin.ext (by
      match a with
      | ⟨0, _⟩ => exact lhsA_0 _ _
      | ⟨1, _⟩ => exact lhsA_1 _ _
      | ⟨2, _⟩ => exact (lhsA_2 _ _).trans hk)
  have er : (dot_S8x8192x256_S8x256x256_S8x8192x256_2_2_1_1_0_0).rhsIdx (ix3 b n k)
      ((ValueIdx.contrEquiv1 dot_S8x8192x256_S8x256x256_S8x8192x256_2_2_1_1_0_0 256 rfl rfl).symm d) = ix3 b k d :=
    funext fun a => Fin.ext (by
      match a with
      | ⟨0, _⟩ => exact rhsA_0 _ _
      | ⟨1, _⟩ => exact rhsA_1 _ _
      | ⟨2, _⟩ => exact (rhsA_2 _ _).trans hk)
  rw [el, er]

theorem lhsB_0 (i : S8x256x256.Idx) (q : (dot_S8x8192x256_S8x8192x256_S8x256x256_1_1_2_2_0_0).contr.Idx) :
    ((dot_S8x8192x256_S8x8192x256_S8x256x256_1_1_2_2_0_0).lhsIdx i q 0).val = (i 0).val := by
  unfold DotDims.lhsIdx
  rw [dif_pos (show (0 : Fin S8x8192x256.rank) ∈ (dot_S8x8192x256_S8x8192x256_S8x256x256_1_1_2_2_0_0).lhsBatch by decide)]
  rfl
theorem lhsB_1 (i : S8x256x256.Idx) (q : (dot_S8x8192x256_S8x8192x256_S8x256x256_1_1_2_2_0_0).contr.Idx) :
    ((dot_S8x8192x256_S8x8192x256_S8x256x256_1_1_2_2_0_0).lhsIdx i q 1).val = (q ⟨0, by decide⟩).val :=
  (dot_S8x8192x256_S8x8192x256_S8x256x256_1_1_2_2_0_0).lhsIdx_val_of_single rfl i q
theorem lhsB_2 (i : S8x256x256.Idx) (q : (dot_S8x8192x256_S8x8192x256_S8x256x256_1_1_2_2_0_0).contr.Idx) :
    ((dot_S8x8192x256_S8x8192x256_S8x256x256_1_1_2_2_0_0).lhsIdx i q 2).val = (i 1).val := by
  unfold DotDims.lhsIdx
  rw [dif_neg (show ¬(2 : Fin S8x8192x256.rank) ∈ (dot_S8x8192x256_S8x8192x256_S8x256x256_1_1_2_2_0_0).lhsBatch by decide),
    dif_pos (show (2 : Fin S8x8192x256.rank) ∈ (dot_S8x8192x256_S8x8192x256_S8x256x256_1_1_2_2_0_0).lhsNonContracting by decide)]
  rfl
theorem rhsB_0 (i : S8x256x256.Idx) (q : (dot_S8x8192x256_S8x8192x256_S8x256x256_1_1_2_2_0_0).contr.Idx) :
    ((dot_S8x8192x256_S8x8192x256_S8x256x256_1_1_2_2_0_0).rhsIdx i q 0).val = (i 0).val := by
  unfold DotDims.rhsIdx
  rw [dif_pos (show (0 : Fin S8x8192x256.rank) ∈ (dot_S8x8192x256_S8x8192x256_S8x256x256_1_1_2_2_0_0).rhsBatch by decide)]
  rfl
theorem rhsB_1 (i : S8x256x256.Idx) (q : (dot_S8x8192x256_S8x8192x256_S8x256x256_1_1_2_2_0_0).contr.Idx) :
    ((dot_S8x8192x256_S8x8192x256_S8x256x256_1_1_2_2_0_0).rhsIdx i q 1).val = (q ⟨0, by decide⟩).val :=
  (dot_S8x8192x256_S8x8192x256_S8x256x256_1_1_2_2_0_0).rhsIdx_val_of_single rfl i q
theorem rhsB_2 (i : S8x256x256.Idx) (q : (dot_S8x8192x256_S8x8192x256_S8x256x256_1_1_2_2_0_0).contr.Idx) :
    ((dot_S8x8192x256_S8x8192x256_S8x256x256_1_1_2_2_0_0).rhsIdx i q 2).val = (i 2).val := by
  unfold DotDims.rhsIdx
  rw [dif_neg (show ¬(2 : Fin S8x8192x256.rank) ∈ (dot_S8x8192x256_S8x8192x256_S8x256x256_1_1_2_2_0_0).rhsBatch by decide),
    dif_pos (show (2 : Fin S8x8192x256.rank) ∈ (dot_S8x8192x256_S8x8192x256_S8x256x256_1_1_2_2_0_0).rhsNonContracting by decide)]
  rfl

/-- The product (weights)ᵀ·x within each batch element: entry (b, k, d) is the sum over n of w(b, n, k) · x(b, n, d). -/
theorem dotB_apply (w x : FVec Ideal S8x8192x256 .f32) (b : Fin 8) (k d : Fin 256) :
    Host.dotGeneral dot_S8x8192x256_S8x8192x256_S8x256x256_1_1_2_2_0_0 none w x (ix3 b k d)
      = ∑ n : Fin 8192, w (ix3 b n k) * x (ix3 b n d) := by
  simp only [Host.dotGeneral]
  rw [Ideal.dotGeneral_apply, ← Equiv.sum_comp (ValueIdx.contrEquiv1 dot_S8x8192x256_S8x8192x256_S8x256x256_1_1_2_2_0_0 8192 rfl rfl).symm]
  refine Finset.sum_congr rfl fun n _ => ?_
  have hk := ValueIdx.contrEquiv1_symm_val dot_S8x8192x256_S8x8192x256_S8x256x256_1_1_2_2_0_0 8192 rfl rfl n
  have el : (dot_S8x8192x256_S8x8192x256_S8x256x256_1_1_2_2_0_0).lhsIdx (ix3 b k d)
      ((ValueIdx.contrEquiv1 dot_S8x8192x256_S8x8192x256_S8x256x256_1_1_2_2_0_0 8192 rfl rfl).symm n) = ix3 b n k :=
    funext fun a => Fin.ext (by
      match a with
      | ⟨0, _⟩ => exact lhsB_0 _ _
      | ⟨1, _⟩ => exact (lhsB_1 _ _).trans hk
      | ⟨2, _⟩ => exact lhsB_2 _ _)
  have er : (dot_S8x8192x256_S8x8192x256_S8x256x256_1_1_2_2_0_0).rhsIdx (ix3 b k d)
      ((ValueIdx.contrEquiv1 dot_S8x8192x256_S8x8192x256_S8x256x256_1_1_2_2_0_0 8192 rfl rfl).symm n) = ix3 b n d :=
    funext fun a => Fin.ext (by
      match a with
      | ⟨0, _⟩ => exact rhsB_0 _ _
      | ⟨1, _⟩ => exact (rhsB_1 _ _).trans hk
      | ⟨2, _⟩ => exact rhsB_2 _ _)
  rw [el, er]

/-- The rows' squared lengths, read at an entry. -/
theorem hx2_apply (x : FVec Ideal S8x8192x256 .f32) (b : Fin 8) (n : Fin 8192) (z : Fin 1) :
    hx2 x (ix3 b n z) = sqn (fun d => x (ix3 b n d)) := by
  unfold hx2 SoftKMeans.sqn
  rw [BatchLayout.unit_last_apply, BatchLayout.hsum_last_apply _ _ _ red_x_last]
  show Ideal.ofBits .f32 0x00000000#32 + _ = _
  rw [Ideal.ofBits_zero_f32, zero_add]
  rfl

/-- The logits, read at an entry. -/
theorem hlogit_apply (x : FVec Ideal S8x8192x256 .f32) (x2 : FVec Ideal S8x8192x1 .f32)
    (hx2 : ∀ b n z, x2 (ix3 b n z) = sqn (fun d => x (ix3 b n d)))
    (c : FVec Ideal S8x256x256 .f32) (b : Fin 8) (n : Fin 8192) (k : Fin 256) :
    hlogit x x2 c (ix3 b n k) = logit (fun d => x (ix3 b n d)) (fun k d => c (ix3 b k d)) k := by
  have p1 : broadcastInDim S8x8192x256 ![0, 1, 2] bcast_S8x8192x1_S8x8192x256_0_1_2 x2 (ix3 b n k)
      = sqn (fun d => x (ix3 b n d)) :=
    (BatchLayout.spread_last_apply _ x2 b n k).trans (hx2 b n 0)
  have p2 : broadcastInDim S8x8192x256 ![0, 1, 2] bcast_S8x1x256_S8x8192x256_0_1_2 (broadcastInDim S8x1x256 ![0, 2] bcast_S8x256_S8x1x256_0_2 (Host.reduceAdd (mulf c c) (constant S_ .f32 0x00000000#32) reducesTo_S8x256x256_S8x256_d2 h_S_)) (ix3 b n k)
      = sqn (fun d => c (ix3 b k d)) := by
    rw [BatchLayout.spread_mid_apply, BatchLayout.unit_mid_apply, BatchLayout.hsum_last_apply _ _ _ red_c_last]
    show Ideal.ofBits .f32 0x00000000#32 + _ = _
    rw [Ideal.ofBits_zero_f32, zero_add]
    rfl
  unfold hlogit SoftKMeans.logit
  show Ideal.div (-((_ + _) - Ideal.ofBits .f32 0x40000000#32 * Host.dotGeneral dot_S8x8192x256_S8x256x256_S8x8192x256_2_2_1_1_0_0 none x c (ix3 b n k))) (Ideal.ofBits .f32 0x3F000000#32) = _
  rw [p1, p2, dotA_apply]

/-- The shifted exponentials, read at an entry. -/
theorem hexp_apply (lg : FVec Ideal S8x8192x256 .f32) (Lg : Fin 8 → Fin 8192 → Fin 256 → EReal)
    (h : ∀ b n k, lg (ix3 b n k) = Lg b n k) (b : Fin 8) (n : Fin 8192) (k : Fin 256) :
    hexp lg (ix3 b n k) = Ideal.exp (Lg b n k - max (Ideal.ofBits .f32 0xFF800000#32)
      (Finset.univ.fold max (Ideal.ofBits .f32 0xFF800000#32) (Lg b n))) := by
  unfold hexp
  show Ideal.exp (lg (ix3 b n k) - _) = _
  rw [h, BatchLayout.spread_last_apply, BatchLayout.unit_last_apply, maximumf_apply, BatchLayout.splat_apply,
    BatchLayout.hmax_last_apply _ _ _ red_x_last, constant_apply, constant_apply]
  exact congrArg (fun f => Ideal.exp (Lg b n k - max (Ideal.ofBits .f32 0xFF800000#32)
    (Finset.univ.fold max (Ideal.ofBits .f32 0xFF800000#32) f))) (funext fun q => h b n q)

/-- The rows divided by their sums, read at an entry. -/
theorem hnorm_apply (e : FVec Ideal S8x8192x256 .f32) (E : Fin 8 → Fin 8192 → Fin 256 → EReal)
    (h : ∀ b n k, e (ix3 b n k) = E b n k) (b : Fin 8) (n : Fin 8192) (k : Fin 256) :
    hnorm e (ix3 b n k) = Ideal.div (E b n k) (∑ k', E b n k') := by
  unfold hnorm
  show Ideal.div (e (ix3 b n k)) _ = _
  rw [h, BatchLayout.spread_last_apply, BatchLayout.unit_last_apply, BatchLayout.hsum_last_apply _ _ _ red_x_last]
  show Ideal.div _ (Ideal.ofBits .f32 0x00000000#32 + _) = _
  rw [Ideal.ofBits_zero_f32, zero_add]
  exact congrArg (Ideal.div (E b n k)) (Finset.sum_congr rfl fun q _ => h b n q)

/-- The weighted means, read at an entry. -/
theorem hupd_apply (x w : FVec Ideal S8x8192x256 .f32) (b : Fin 8) (k d : Fin 256) :
    hupd x w (ix3 b k d) = Ideal.div (∑ n : Fin 8192, w (ix3 b n k) * x (ix3 b n d))
      ((∑ n : Fin 8192, w (ix3 b n k)) + Ideal.ofBits .f32 0x358637BD#32) := by
  unfold hupd
  show Ideal.div (Host.dotGeneral dot_S8x8192x256_S8x8192x256_S8x256x256_1_1_2_2_0_0 none w x (ix3 b k d)) _ = _
  rw [dotB_apply, BatchLayout.spread_last_apply]
  show Ideal.div _ (_ + Ideal.ofBits .f32 0x358637BD#32) = _
  rw [BatchLayout.unit_last_apply, BatchLayout.hsum_mid_apply _ _ _ red_x_mid]
  show Ideal.div _ ((Ideal.ofBits .f32 0x00000000#32 + _) + _) = _
  rw [Ideal.ofBits_zero_f32, zero_add]

/-- One update of the centroids as the reference computes it is, for each batch element, the soft k-means update. -/
theorem hiter_apply (x : FVec Ideal S8x8192x256 .f32) (x2 : FVec Ideal S8x8192x1 .f32)
    (hx2 : ∀ b n z, x2 (ix3 b n z) = sqn (fun d => x (ix3 b n d)))
    (c : FVec Ideal S8x256x256 .f32) (C : Fin 8 → Fin 256 → Fin 256 → EReal) (hc : ∀ b k d, c (ix3 b k d) = C b k d)
    (b : Fin 8) (k d : Fin 256) :
    hiter x x2 c (ix3 b k d) = step (fun n d => x (ix3 b n d)) (C b) k d := by
  have hC : (fun k d => c (ix3 b k d)) = C b := funext fun k => funext fun d => hc b k d
  have hl : ∀ b n k, hlogit x x2 c (ix3 b n k) = logit (fun d => x (ix3 b n d)) (fun k d => c (ix3 b k d)) k :=
    fun b n k => hlogit_apply x x2 hx2 c b n k
  have he : ∀ b n k, hexp (hlogit x x2 c) (ix3 b n k) = expo (fun d => x (ix3 b n d)) (fun k d => c (ix3 b k d)) k :=
    fun b n k => hexp_apply (hlogit x x2 c) (fun b n k => logit (fun d => x (ix3 b n d)) (fun k d => c (ix3 b k d)) k) hl b n k
  have hw : ∀ b n k, hnorm (hexp (hlogit x x2 c)) (ix3 b n k) = weight (fun d => x (ix3 b n d)) (fun k d => c (ix3 b k d)) k :=
    fun b n k => hnorm_apply (hexp (hlogit x x2 c)) (fun b n k => expo (fun d => x (ix3 b n d)) (fun k d => c (ix3 b k d)) k) he b n k
  unfold hiter
  rw [hupd_apply]
  simp only [hw, hC]
  rfl

end Apply

end Cert.ReferenceIdeal.Iter

end
-- ==== Proof.RefRun.lean ====
/-
  The reference's run, read: its result is five updates (`Iter.hiter`) of the initial centroids — the rows of x picked
  by the indices, a negative index counted from the end — and so, entry by entry, five soft k-means updates of each
  batch element's rows and initial centroids.
-/
import proofs.«175411_j7876970021312_1_alg».proof.Proof.Gen.ReferenceIdeal.Run
import proofs.«175411_j7876970021312_1_alg».proof.Proof.RefIter

noncomputable section

namespace Cert.ReferenceIdeal.RefValue

open Cert.ReferenceIdeal Cert.ReferenceIdeal.Gen Cert.ReferenceIdeal.Value Cert.ReferenceIdeal.Iter
open Idealize.ShloMosaic Idealize.ShloMosaic.TcCoe Idealize.SL.Sem Idealize.ShloMosaic.StableHlo Idealize.ShloMosaic.ValueIdx SoftKMeans

section Defs

variable {F : FTy → Type} [FloatOps F]

/-- The initial centroids: for each batch element the rows of x the indices name, a negative index counted from the
    end. -/
def c0 (x : (⟨S8x8192x256, .f32⟩ : BufTy).Contents (Elt F)) (idx : (⟨S8x256, .i32⟩ : BufTy).Contents (Elt F)) :
    (⟨S8x256x256, .f32⟩ : BufTy).Contents (Elt F) :=
  Host.gather gather_S8x8192x256_S8x256x1_S8x256x256_2_1_0_0_1_2_11256 x (broadcastInDim S8x256x1 ![0, 1] bcast_S8x256_S8x256x1_0_1 (select (cmpi .slt idx (broadcastInDim S8x256 ![] bcast_S_S8x256 (constantI S_ 32 0#32))) (addi idx (broadcastInDim S8x256 ![] bcast_S_S8x256 (constantI S_ 32 8192#32))) idx))

/-- The reference's result: five updates from the initial centroids. -/
def result (x : (⟨S8x8192x256, .f32⟩ : BufTy).Contents (Elt F)) (idx : (⟨S8x256, .i32⟩ : BufTy).Contents (Elt F)) :
    (⟨S8x256x256, .f32⟩ : BufTy).Contents (Elt F) :=
  hiter x (hx2 x) (hiter x (hx2 x) (hiter x (hx2 x) (hiter x (hx2 x) (hiter x (hx2 x) (c0 x idx)))))

variable (V0 : Valuation τ sig (Elt F))

theorem res6_eq : res_main_v6 V0 = c0 (V0 (Proc.devRef .tc main_arg0)) (V0 (Proc.devRef .tc main_arg1)) := rfl
theorem res9_eq : res_main_v9 V0 = hx2 (V0 (Proc.devRef .tc main_arg0)) := rfl
theorem res40_eq : res_main_v40 V0 = hiter (V0 (Proc.devRef .tc main_arg0)) (res_main_v9 V0) (res_main_v6 V0) := rfl
theorem res71_eq : res_main_v71 V0 = hiter (V0 (Proc.devRef .tc main_arg0)) (res_main_v9 V0) (res_main_v40 V0) := rfl
theorem res102_eq : res_main_v102 V0 = hiter (V0 (Proc.devRef .tc main_arg0)) (res_main_v9 V0) (res_main_v71 V0) := rfl
theorem res133_eq : res_main_v133 V0 = hiter (V0 (Proc.devRef .tc main_arg0)) (res_main_v9 V0) (res_main_v102 V0) := rfl

end Defs

variable (m : (ℓ : Loc nD τ sig) → Buf (Elt Ideal) ℓ) (ρ : Dev nD → PrngReg)

/-- Every weakly fair execution of the reference ends with its result at `result` of the arguments, the arguments
    unchanged. -/
theorem run : θ_run defs (onTc (τ := τ) (main (F := Ideal))) ⟨m, fun _ => 0, ρ⟩ fun r => ∀ c : Dev nD,
      r.2.mem ((c.tc : Thread nD τ).loc main_v164) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      show hiter (launchContents m c (Proc.devRef .tc main_arg0)) (res_main_v9 (launchContents m c)) (res_main_v133 (launchContents m c)) = _
      rw [res133_eq, res102_eq, res71_eq, res40_eq, res9_eq, res6_eq]
      rfl), (h c).2⟩)
    (Cert.ReferenceIdeal.Value.run (F := Ideal) m ρ)

/-- The result read at an entry: five soft k-means updates of batch element b's rows and initial centroids. -/
theorem result_apply (x : FVec Ideal S8x8192x256 .f32) (idx : (⟨S8x256, .i32⟩ : BufTy).Contents (Elt Ideal))
    (b : Fin 8) (k d : Fin 256) :
    result x idx (ix3 b k d) = iter5 (fun n d => x (ix3 b n d)) (fun k d => c0 x idx (ix3 b k d)) k d := by
  unfold result SoftKMeans.iter5
  have h0 : ∀ b k d, c0 x idx (ix3 b k d) = (fun b k d => c0 x idx (ix3 b k d)) b k d := fun _ _ _ => rfl
  have h1 := hiter_apply x (hx2 x) (hx2_apply x) _ _ h0
  have h2 := hiter_apply x (hx2 x) (hx2_apply x) _ _ h1
  have h3 := hiter_apply x (hx2 x) (hx2_apply x) _ _ h2
  have h4 := hiter_apply x (hx2 x) (hx2_apply x) _ _ h3
  exact hiter_apply x (hx2 x) (hx2_apply x) _ _ h4 b k d

end Cert.ReferenceIdeal.RefValue

end
-- ==== Proof.lean ====
/-
  Soft k-means (five updates of 256 centroids over 8192 rows of 256 numbers, for each of 8 batch elements): the Pallas
  kernel against its jnp reference, on the extended reals.

  The kernel works on one batch element per grid point. It keeps the element's 8192 rows resident and goes through them
  in four blocks of 2048; for each block it forms the logits -((|x|² + |c|²) - 2·x·cᵀ)/(1/2), the softmax weights of
  each row, and accumulates the weights' column sums and (weights)ᵀ·x; after the four blocks the new centroids are the
  weighted sums over the total weights plus ε. The reference does the same on whole arrays, all rows at once. On the
  extended reals the roundings to bf16 are the identity, every operation is the same exact operation on both sides, and
  the only difference is that the kernel's sums over the rows are taken four blocks at a time — addition of extended
  reals is commutative and associative, so the sums agree (`SoftKMeans.sum_blocks`) and no finiteness is needed. Both
  programs start from the same initial centroids, rows of x picked by the indices on the host.

  Each side is read as five applications of one update function (the kernel's `Iter.kiter`, the reference's
  `Iter.hiter`), each shown entry by entry to be `SoftKMeans.step`; the kernel's eight blocks tile its result array.
-/
import proofs.«175411_j7876970021312_1_alg».proof.Defs
import proofs.«175411_j7876970021312_1_alg».proof.Proof.Gen.Kernel
import proofs.«175411_j7876970021312_1_alg».proof.Proof.Gen.KernelIdeal
import proofs.«175411_j7876970021312_1_alg».proof.Proof.Gen.ReferenceIdeal
import proofs.«175411_j7876970021312_1_alg».proof.Proof.Gen.Pre_finite_inputs
import proofs.«175411_j7876970021312_1_alg».proof.Proof.FrameK
import proofs.«175411_j7876970021312_1_alg».proof.Proof.FrameKI
import proofs.«175411_j7876970021312_1_alg».proof.Proof.KerValue
import proofs.«175411_j7876970021312_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx SoftKMeans

/-- The two programs pick the same initial centroids from the same arguments. -/
theorem c0_eq (x : FVec Ideal Cert.KernelIdeal.S8x8192x256 .f32) (idx : (⟨Cert.KernelIdeal.S8x256, .i32⟩ : BufTy).Contents (Elt Ideal)) :
    Cert.ReferenceIdeal.RefValue.c0 x idx = Cert.KernelIdeal.KValue.c0 x idx := rfl

/-- The reference's result is the kernel's function of the arguments: entry by entry both are five soft k-means
    updates of the batch element's rows and initial centroids. -/
theorem result_eq (x : FVec Ideal Cert.KernelIdeal.S8x8192x256 .f32) (idx : (⟨Cert.KernelIdeal.S8x256, .i32⟩ : BufTy).Contents (Elt Ideal)) :
    Cert.ReferenceIdeal.RefValue.result x idx = Cert.KernelIdeal.KValue.G x (Cert.KernelIdeal.KValue.c0 x idx) := by
  funext i
  obtain ⟨b, k, d, rfl⟩ : ∃ (b : Fin 8) (k d : Fin 256), i = ix3 b k d := ⟨i 0, i 1, i 2, eq_ix3 i⟩
  rw [Cert.ReferenceIdeal.RefValue.result_apply, c0_eq]
  rfl

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefValue.run m ρ)

/-- The ideal pass rewrote nothing: the idealized kernel is the kernel's own text. -/
theorem preserves : Cert.preserves_Kernel_KernelIdeal := trivial

/-- Both idealized programs end with the same result array from arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact result_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
